-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S131072x256 : Shape := ⟨2, ![131072, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S131072x256 : S_.BroadcastsInDim S131072x256 (![] : Fin 0 → Fin S131072x256.rank)
  reducesTo_S131072x256_S_d0_1 : S131072x256.ReducesTo [0, 1] S_

variable [Facts]

def fn {F : FTy → Type} [FloatOps F] (main_arg0 : FVec F S16384x256 .f32) (main_arg1 : FVec F S131072x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  main_v8
-- ==== Kernel.lean ====
abbrev S16384x256 : Shape := ⟨2, ![16384, 256]⟩
abbrev S131072x256 : Shape := ⟨2, ![131072, 256]⟩
abbrev S16896x256 : Shape := ⟨2, ![16896, 256]⟩
abbrev S16x256 : Shape := ⟨2, ![16, 256]⟩
abbrev S128x256 : Shape := ⟨2, ![128, 256]⟩
abbrev S_ : Shape := ⟨0, ![]⟩

abbrev nBuf : Table → Nat
  | .hbm => 3
  | .local .scVector .vmem => 4
  | _ => 0

abbrev bufTy : (tb : Table) → Fin (nBuf tb) → BufTy
  | .hbm, ⟨0, _⟩ => ⟨S16384x256, .f32⟩
  | .hbm, ⟨1, _⟩ => ⟨S131072x256, .f32⟩
  | .hbm, ⟨2, _⟩ => ⟨S16896x256, .f32⟩
  | .local .scVector .vmem, ⟨0, _⟩ => ⟨S16x256, .f32⟩
  | .local .scVector .vmem, ⟨1, _⟩ => ⟨S128x256, .f32⟩
  | .local .scVector .vmem, ⟨2, _⟩ => ⟨S128x256, .f32⟩
  | .local .scVector .vmem, ⟨3, _⟩ => ⟨S128x256, .f32⟩
  | _, _ => ⟨S16384x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c0_i32_1 : BitVec 32 := 0#32
  ![v3.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_5 : BitVec 32 := 0#32
  ![v2.toNat, 0]
def k0_off4 (i : grid0.Coords) (c128_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let v12 : BitVec 32 := Scalar.addi v3 c128_i32
  let c0_i32_7 : BitVec 32 := 0#32
  ![v12.toNat, 0]
def k0_off5 (i : grid0.Coords) (c0_i32_12 : BitVec 32) : Fin 2 → Nat :=
  let c512_i32_11 : BitVec 32 := 512#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let v17 : BitVec 32 := Scalar.addi c512_i32_11 v3
  let v18 : BitVec 32 := Scalar.addi v17 c0_i32_12
  let c0_i32_13 : BitVec 32 := 0#32
  ![v18.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  hcc0_scratch4 : 0 + S_.numel ≤ 7
  hcc0_scratch5 : 1 + S_.numel ≤ 7
  hcc0_scratch6 : 2 + S_.numel ≤ 7
  hcc0_scratch7 : 3 + S_.numel ≤ 7
  hcc0_scratch8 : 4 + S_.numel ≤ 7
  hcc0_scratch9 : 5 + S_.numel ≤ 7
  hcc0_scratch10 : 6 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S16x256.size a ≤ S131072x256.size a
  k0_off2_inb : ∀ i : grid0.Coords, ∀ a, (k0_off2 i) a + S128x256.size a ≤ S16384x256.size a
  k0_off3_inb : ∀ i : grid0.Coords, ∀ a, (k0_off3 i) a + S16x256.size a ≤ S16896x256.size a
  k0_off4_inb : ∀ i : grid0.Coords, ∀ (r : Fin 3), ∀ a, (k0_off4 i (BitVec.ofNat 32 (128 + 128 * r.val))) a + S128x256.size a ≤ S16384x256.size a
  k0_off5_inb : ∀ i : grid0.Coords, ∀ (r : Fin 4), ∀ a, (k0_off5 i (BitVec.ofNat 32 (128 * r.val))) a + S128x256.size a ≤ S16896x256.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scratch8 : DmaSems sig S_ := SemArray.consecutive 4 S_ hcc0_scratch8
abbrev cc0_scratch9 : DmaSems sig S_ := SemArray.consecutive 5 S_ hcc0_scratch9
abbrev cc0_scratch10 : DmaSems sig S_ := SemArray.consecutive 6 S_ hcc0_scratch10

class Facts : Prop extends Facts₀ where

variable [Facts]
-- ==== ReferenceIdeal.lean ====
abbrev S16384x256 : Shape := ⟨2, ![16384, 256]⟩
abbrev S131072x256 : Shape := ⟨2, ![131072, 256]⟩
abbrev S_ : Shape := ⟨0, ![]⟩
abbrev S16896x256 : Shape := ⟨2, ![16896, 256]⟩

abbrev nBuf : Space → Nat
  | .hbm => 6
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S131072x256, .f32⟩
  | .hbm, ⟨2, _⟩ => ⟨S_, .i32⟩
  | .hbm, ⟨3, _⟩ => ⟨S_, .i32⟩
  | .hbm, ⟨4, _⟩ => ⟨S131072x256, .f32⟩
  | .hbm, ⟨5, _⟩ => ⟨S16896x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]

class Facts₀ : Prop where
  updateFits_S131072x256_S16384x256 : S131072x256.Slices (fun _ => 0) S16384x256
  h_S_ : 0 < S_.numel
  slices_S131072x256_S16896x256_0_0 : S131072x256.Slices ![0, 0] S16896x256

variable [Facts₀]

class Facts : Prop extends Facts₀ where

variable [Facts]
-- ==== Proof.Stacked.lean ====
/-
  The specification: the result has 16896 rows; its first 512 are the queue's first 512 rows, and row 512 + r is
  row r of the batch.
-/
import Idealize.ShloMosaic.PureOps

namespace Cert.Stacked

open Idealize.ShloMosaic

abbrev SQ : Shape := ⟨2, ![131072, 256]⟩
abbrev SX : Shape := ⟨2, ![16384, 256]⟩
abbrev SO : Shape := ⟨2, ![16896, 256]⟩

/-- A row of the result below 512, as a row of the queue. -/
def headIdx (i : SO.Idx) (h : (i 0).val < 512) : SQ.Idx := fun a => match a with
  | ⟨0, _⟩ => ⟨(i 0).val, by show (i 0).val < 131072; omega⟩
  | ⟨1, _⟩ => ⟨(i 1).val, (i 1).isLt⟩

/-- A row of the result from 512 on, as a row of the batch. -/
def tailIdx (i : SO.Idx) (h : ¬ (i 0).val < 512) : SX.Idx := fun a => match a with
  | ⟨0, _⟩ => ⟨(i 0).val - 512, by have := (i 0).isLt; show (i 0).val - 512 < 16384; change (i 0).val < 16896 at this; omega⟩
  | ⟨1, _⟩ => ⟨(i 1).val, (i 1).isLt⟩

/-- The queue's first 512 rows stacked over the batch. -/
def stacked {α : Type} (q : SQ.Idx → α) (x : SX.Idx → α) : SO.Idx → α :=
  fun i => if h : (i 0).val < 512 then q (headIdx i h) else x (tailIdx i h)

theorem stacked_head {α : Type} (q : SQ.Idx → α) (x : SX.Idx → α) (i : SO.Idx) (j : SQ.Idx)
    (h0 : (i 0).val = (j 0).val) (h1 : (i 1).val = (j 1).val) (hlt : (i 0).val < 512) : stacked q x i = q j := by
  unfold stacked
  rw [dif_pos hlt]
  congr 1
  funext a
  match a with
  | ⟨0, _⟩ => exact Fin.ext h0
  | ⟨1, _⟩ => exact Fin.ext h1

theorem stacked_tail {α : Type} (q : SQ.Idx → α) (x : SX.Idx → α) (i : SO.Idx) (j : SX.Idx)
    (h0 : (i 0).val = (j 0).val + 512) (h1 : (i 1).val = (j 1).val) : stacked q x i = x j := by
  unfold stacked
  have hge : ¬ (i 0).val < 512 := by omega
  rw [dif_neg hge]
  congr 1
  funext a
  match a with
  | ⟨0, _⟩ => exact Fin.ext (by show (i 0).val - 512 = (j 0).val; omega)
  | ⟨1, _⟩ => exact Fin.ext h1

end Cert.Stacked
-- ==== Proof.TaskBits.lean ====
/-
  One vector subcore's task. Subcore s of SparseCore c is worker w = 2 s + c of thirty-two. It moves sixteen rows of
  the queue (rows 16 w ..) through a scratch of its own into the same rows of the result, and four blocks of 128 rows
  of the batch (rows 512 w + 128 k ..) through three scratches used in rotation into rows 512 + 512 w + 128 k .. of
  the result. Every copy has a semaphore to itself while it is in flight, and no scratch is written again before
  the copy out of it has been waited for.
-/
import proofs.«219490_g11244224381196_week1_w3_1464_12_alg».proof.Defs
import Idealize.ShloMosaic.Lib.SparseCore.Launch
import Idealize.ShloMosaic.Lib.StableHlo.Run
import Idealize.ShloMosaic.Lib.Pipeline.Kit
import Idealize.ShloMosaic.Lib.Tactic
import proofs.«219490_g11244224381196_week1_w3_1464_12_alg».proof.Proof.Gen.Kernel
import proofs.«219490_g11244224381196_week1_w3_1464_12_alg».proof.Proof.Gen.Kernel.Skeleton
import proofs.«219490_g11244224381196_week1_w3_1464_12_alg».proof.Proof.Stacked

noncomputable section

namespace Cert.Proof.CopyBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the local copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and one subcore's pieces of them -/

variable (m : (ℓ : Loc nD τ sig) → Buf (Elt F) ℓ) (ρ : Dev nD → PrngReg)

abbrev xLoc (d : Dev nD) : Loc nD τ sig := (SparseCore.T d).loc main_arg0
abbrev qLoc (d : Dev nD) : Loc nD τ sig := (SparseCore.T d).loc main_arg1
abbrev oLoc (d : Dev nD) : Loc nD τ sig := (SparseCore.T d).loc main_v0

abbrev xV : Memref sig .scVector .hbm S16384x256 .f32 := Memref.whole main_arg0_scv
abbrev qV : Memref sig .scVector .hbm S131072x256 .f32 := Memref.whole main_arg1_scv
abbrev oV : Memref sig .scVector .hbm S16896x256 .f32 := Memref.whole main_v0_scv
abbrev sQ : Memref sig .scVector .vmem S16x256 .f32 := Memref.whole cc0_scratch0
abbrev sA : Memref sig .scVector .vmem S128x256 .f32 := Memref.whole cc0_scratch1
abbrev sB : Memref sig .scVector .vmem S128x256 .f32 := Memref.whole cc0_scratch2
abbrev sC : Memref sig .scVector .vmem S128x256 .f32 := Memref.whole cc0_scratch3

/-! ## What a copied piece holds

A piece of the result written whole from a piece of the queue at the same rows, or from a piece of the batch 512 rows
up, holds the stacked array's elements. Stated at any offsets, so that the printed offset functions instantiate them. -/

section Values

variable (fq : S131072x256.Idx → Elt F .f32) (fx : S16384x256.Idx → Elt F .f32) (fo : S16896x256.Idx → Elt F .f32)

theorem head_value (offo offq : Fin 2 → Nat) (inbo : ∀ a, offo a + S16x256.size a ≤ S16896x256.size a)
    (inbq : ∀ a, offq a + S16x256.size a ≤ S131072x256.size a) (h0 : offo 0 = offq 0) (h1 : offo 1 = offq 1) (hlt : offo 0 + 16 ≤ 512)
    (w : S16x256.Idx → Elt F .f32) (hw : w = ((qV).slice (Rect.unit (s := S131072x256) offq S16x256.size inbq) (fun _ => rfl)).view.read (Elt F) fq) :
    ∀ i ∈ ((oV).slice (Rect.unit (s := S16896x256) offo S16x256.size inbo) (fun _ => rfl)).view.set,
      (((oV).slice (Rect.unit (s := S16896x256) offo S16x256.size inbo) (fun _ => rfl)).view.writes (Elt F) fo
        [⟨Rect.whole S16x256, w⟩]) i
      = Cert.Stacked.stacked fq fx i := by
  subst hw
  intro i hi
  obtain ⟨y, -, rfl⟩ := Finset.mem_map.mp hi
  have h := View.read_writes_cons_emb ((oV).slice (Rect.unit (s := S16896x256) offo S16x256.size inbo) (fun _ => rfl)).view fo (Rect.whole S16x256)
    (((qV).slice (Rect.unit (s := S131072x256) offq S16x256.size inbq) (fun _ => rfl)).view.read (Elt F) fq) [] y
  have e : (Rect.whole S16x256).emb y = y := Rect.emb_whole_apply S16x256 y
  rw [e, View.read_apply, View.read_apply] at h
  refine ((cast_eq _ _).symm.trans h).trans ((cast_eq _ _).trans ?_)
  have hy0 : (y 0).val < 16 := (y 0).isLt
  refine (Cert.Stacked.stacked_head fq fx _ _ ?_ ?_ ?_).symm
  · show offo 0 + 1 * (y 0).val = offq 0 + 1 * (y 0).val
    omega
  · show offo 1 + 1 * (y 1).val = offq 1 + 1 * (y 1).val
    omega
  · show offo 0 + 1 * (y 0).val < 512
    omega

theorem blk_value (offo offx : Fin 2 → Nat) (inbo : ∀ a, offo a + S128x256.size a ≤ S16896x256.size a)
    (inbx : ∀ a, offx a + S128x256.size a ≤ S16384x256.size a) (h0 : offo 0 = offx 0 + 512) (h1 : offo 1 = offx 1)
    (w : S128x256.Idx → Elt F .f32) (hw : w = ((xV).slice (Rect.unit (s := S16384x256) offx S128x256.size inbx) (fun _ => rfl)).view.read (Elt F) fx) :
    ∀ i ∈ ((oV).slice (Rect.unit (s := S16896x256) offo S128x256.size inbo) (fun _ => rfl)).view.set,
      (((oV).slice (Rect.unit (s := S16896x256) offo S128x256.size inbo) (fun _ => rfl)).view.writes (Elt F) fo
        [⟨Rect.whole S128x256, w⟩]) i
      = Cert.Stacked.stacked fq fx i := by
  subst hw
  intro i hi
  obtain ⟨y, -, rfl⟩ := Finset.mem_map.mp hi
  have h := View.read_writes_cons_emb ((oV).slice (Rect.unit (s := S16896x256) offo S128x256.size inbo) (fun _ => rfl)).view fo (Rect.whole S128x256)
    (((xV).slice (Rect.unit (s := S16384x256) offx S128x256.size inbx) (fun _ => rfl)).view.read (Elt F) fx) [] y
  have e : (Rect.whole S128x256).emb y = y := Rect.emb_whole_apply S128x256 y
  rw [e, View.read_apply, View.read_apply] at h
  refine ((cast_eq _ _).symm.trans h).trans ((cast_eq _ _).trans ?_)
  refine (Cert.Stacked.stacked_tail fq fx _ _ ?_ ?_).symm
  · show offo 0 + 1 * (y 0).val = offx 0 + 1 * (y 0).val + 512
    omega
  · show offo 1 + 1 * (y 1).val = offx 1 + 1 * (y 1).val
    omega

end Values

section Task

variable (d : Dev nD) (L : grid0.Coords)

abbrev cV (L : grid0.Coords) : Fin τ.nSC := (L 0).castLE hcore0
abbrev jV (L : grid0.Coords) : Fin τ.nSub := (L 1).castLE hsub0

/-- The sixteen queue rows the subcore reads, and the same rows of the result. -/
abbrev qRows (L : grid0.Coords) : Memref sig .scVector .hbm S16x256 .f32 :=
  (qV).slice (Rect.unit (s := S131072x256) (k0_off1 L) S16x256.size (k0_off1_inb L)) (fun _ => rfl)
abbrev oHead (L : grid0.Coords) : Memref sig .scVector .hbm S16x256 .f32 :=
  (oV).slice (Rect.unit (s := S16896x256) (k0_off3 L) S16x256.size (k0_off3_inb L)) (fun _ => rfl)
/-- The four blocks of the batch the subcore reads, -/
abbrev xBlk0 (L : grid0.Coords) : Memref sig .scVector .hbm S128x256 .f32 :=
  (xV).slice (Rect.unit (s := S16384x256) (k0_off2 L) S128x256.size (k0_off2_inb L)) (fun _ => rfl)
abbrev xBlk1 (L : grid0.Coords) : Memref sig .scVector .hbm S128x256 .f32 :=
  (xV).slice (Rect.unit (s := S16384x256) (k0_off4 L 128#32) S128x256.size (k0_off4_inb L 0)) (fun _ => rfl)
abbrev xBlk2 (L : grid0.Coords) : Memref sig .scVector .hbm S128x256 .f32 :=
  (xV).slice (Rect.unit (s := S16384x256) (k0_off4 L 256#32) S128x256.size (k0_off4_inb L 1)) (fun _ => rfl)
abbrev xBlk3 (L : grid0.Coords) : Memref sig .scVector .hbm S128x256 .f32 :=
  (xV).slice (Rect.unit (s := S16384x256) (k0_off4 L 384#32) S128x256.size (k0_off4_inb L 2)) (fun _ => rfl)
/-- and the four blocks of the result it writes them to. -/
abbrev oBlk0 (L : grid0.Coords) : Memref sig .scVector .hbm S128x256 .f32 :=
  (oV).slice (Rect.unit (s := S16896x256) (k0_off5 L 0#32) S128x256.size (k0_off5_inb L 0)) (fun _ => rfl)
abbrev oBlk1 (L : grid0.Coords) : Memref sig .scVector .hbm S128x256 .f32 :=
  (oV).slice (Rect.unit (s := S16896x256) (k0_off5 L 128#32) S128x256.size (k0_off5_inb L 1)) (fun _ => rfl)
abbrev oBlk2 (L : grid0.Coords) : Memref sig .scVector .hbm S128x256 .f32 :=
  (oV).slice (Rect.unit (s := S16896x256) (k0_off5 L 256#32) S128x256.size (k0_off5_inb L 2)) (fun _ => rfl)
abbrev oBlk3 (L : grid0.Coords) : Memref sig .scVector .hbm S128x256 .f32 :=
  (oV).slice (Rect.unit (s := S16896x256) (k0_off5 L 384#32) S128x256.size (k0_off5_inb L 3)) (fun _ => rfl)

abbrev thr (d : Dev nD) (L : grid0.Coords) : Thread nD τ := V d (cV L) (jV L)

abbrev cell (d : Dev nD) (L : grid0.Coords) (a : DmaSem sig) : GSem nD τ sig := (thr d L, SemLoc.dma a)

omit F in
theorem cell_ne (a b : DmaSem sig) (h : a ≠ b) : cell d L a ≠ cell d L b :=
  fun e => h (SemLoc.dma.inj (Prod.mk.inj e).2)
omit F in
theorem cell_mem (a : DmaSem sig) (h : (SemLoc.dma a : SemLoc sig).isScoped .scVector = true) : cell d L a ∈ ownCells (thr d L) :=
  mem_ownCells.mpr ⟨rfl, h⟩

/-! ## The subcore's own semaphores and scratches, named -/

abbrev restCells (d : Dev nD) (L : grid0.Coords) : Finset (GSem nD τ sig) :=
  (((((((ownCells (thr d L)).erase (cell d L cc0_scratch4.sem)).erase (cell d L cc0_scratch5.sem)).erase (cell d L cc0_scratch6.sem)).erase
    (cell d L cc0_scratch7.sem)).erase (cell d L cc0_scratch8.sem)).erase (cell d L cc0_scratch9.sem)).erase (cell d L cc0_scratch10.sem)

theorem ownSems0_task :
    (ownSems0 (thr d L) : sProp 𝕄)
      = iprop(semVal (cell d L cc0_scratch4.sem) 0 ∗ semVal (cell d L cc0_scratch5.sem) 0 ∗ semVal (cell d L cc0_scratch6.sem) 0
          ∗ semVal (cell d L cc0_scratch7.sem) 0 ∗ semVal (cell d L cc0_scratch8.sem) 0 ∗ semVal (cell d L cc0_scratch9.sem) 0
          ∗ semVal (cell d L cc0_scratch10.sem) 0 ∗ bigSep (restCells d L) fun g => semVal g 0) := by
  unfold SparseCore.Cfg.ownSems0
  have m4 := cell_mem d L cc0_scratch4.sem (by decide)
  have m5 := Finset.mem_erase.mpr ⟨cell_ne d L cc0_scratch5.sem cc0_scratch4.sem (by decide), cell_mem d L cc0_scratch5.sem (by decide)⟩
  have m6 := Finset.mem_erase.mpr ⟨cell_ne d L cc0_scratch6.sem cc0_scratch5.sem (by decide),
    Finset.mem_erase.mpr ⟨cell_ne d L cc0_scratch6.sem cc0_scratch4.sem (by decide), cell_mem d L cc0_scratch6.sem (by decide)⟩⟩
  have m7 := Finset.mem_erase.mpr ⟨cell_ne d L cc0_scratch7.sem cc0_scratch6.sem (by decide),
    Finset.mem_erase.mpr ⟨cell_ne d L cc0_scratch7.sem cc0_scratch5.sem (by decide),
    Finset.mem_erase.mpr ⟨cell_ne d L cc0_scratch7.sem cc0_scratch4.sem (by decide), cell_mem d L cc0_scratch7.sem (by decide)⟩⟩⟩
  have m8 := Finset.mem_erase.mpr ⟨cell_ne d L cc0_scratch8.sem cc0_scratch7.sem (by decide),
    Finset.mem_erase.mpr ⟨cell_ne d L cc0_scratch8.sem cc0_scratch6.sem (by decide),
    Finset.mem_erase.mpr ⟨cell_ne d L cc0_scratch8.sem cc0_scratch5.sem (by decide),
    Finset.mem_erase.mpr ⟨cell_ne d L cc0_scratch8.sem cc0_scratch4.sem (by decide), cell_mem d L cc0_scratch8.sem (by decide)⟩⟩⟩⟩
  have m9 := Finset.mem_erase.mpr ⟨cell_ne d L cc0_scratch9.sem cc0_scratch8.sem (by decide),
    Finset.mem_erase.mpr ⟨cell_ne d L cc0_scratch9.sem cc0_scratch7.sem (by decide),
    Finset.mem_erase.mpr ⟨cell_ne d L cc0_scratch9.sem cc0_scratch6.sem (by decide),
    Finset.mem_erase.mpr ⟨cell_ne d L cc0_scratch9.sem cc0_scratch5.sem (by decide),
    Finset.mem_erase.mpr ⟨cell_ne d L cc0_scratch9.sem cc0_scratch4.sem (by decide), cell_mem d L cc0_scratch9.sem (by decide)⟩⟩⟩⟩⟩
  have m10 := Finset.mem_erase.mpr ⟨cell_ne d L cc0_scratch10.sem cc0_scratch9.sem (by decide),
    Finset.mem_erase.mpr ⟨cell_ne d L cc0_scratch10.sem cc0_scratch8.sem (by decide),
    Finset.mem_erase.mpr ⟨cell_ne d L cc0_scratch10.sem cc0_scratch7.sem (by decide),
    Finset.mem_erase.mpr ⟨cell_ne d L cc0_scratch10.sem cc0_scratch6.sem (by decide),
    Finset.mem_erase.mpr ⟨cell_ne d L cc0_scratch10.sem cc0_scratch5.sem (by decide),
    Finset.mem_erase.mpr ⟨cell_ne d L cc0_scratch10.sem cc0_scratch4.sem (by decide), cell_mem d L cc0_scratch10.sem (by decide)⟩⟩⟩⟩⟩⟩
  rw [SparseCore.bigSep_erase' m4, SparseCore.bigSep_erase' m5, SparseCore.bigSep_erase' m6, SparseCore.bigSep_erase' m7,
    SparseCore.bigSep_erase' m8, SparseCore.bigSep_erase' m9, SparseCore.bigSep_erase' m10]

abbrev pV (L : grid0.Coords) : Proc τ := Proc.scVector (cV L) (jV L)

abbrev restRefs (L : grid0.Coords) : Finset (DevRef τ sig) :=
  ((((ownRefs (τ := τ) (pV L)).erase ((pV L).devRef cc0_scratch0)).erase ((pV L).devRef cc0_scratch1)).erase
    ((pV L).devRef cc0_scratch2)).erase ((pV L).devRef cc0_scratch3)

omit F in
theorem ref_ne {a b : Ref sig .scVector} (h : a ≠ b) : (pV L).devRef a ≠ (pV L).devRef b :=
  fun e => h (Proc.devRef_injective _ e)
omit F in
theorem ref_mem (a : Ref sig .scVector) (h : ((pV L).devRef a).owner = .proc (pV L)) : (pV L).devRef a ∈ ownRefs (τ := τ) (pV L) :=
  SparseCore.Cfg.mem_ownRefs_of_owner h

theorem ownBufs_task :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (restRefs L) fun b => iprop(∃ f, ((d, b) : Loc nD τ sig) ↦{fullShare} f)) := by
  unfold SparseCore.Cfg.ownBufs
  refine (SparseCore.bigSep_erase' (ref_mem L cc0_scratch0 rfl)).trans ?_
  rw [SparseCore.bigSep_erase' (Finset.mem_erase.mpr ⟨ref_ne L (by decide), ref_mem L cc0_scratch1 rfl⟩),
    SparseCore.bigSep_erase' (Finset.mem_erase.mpr ⟨ref_ne L (by decide), Finset.mem_erase.mpr ⟨ref_ne L (by decide), ref_mem L cc0_scratch2 rfl⟩⟩),
    SparseCore.bigSep_erase' (Finset.mem_erase.mpr ⟨ref_ne L (by decide), Finset.mem_erase.mpr ⟨ref_ne L (by decide),
      Finset.mem_erase.mpr ⟨ref_ne L (by decide), ref_mem L cc0_scratch3 rfl⟩⟩⟩)]

variable [FloatOps F]

/-- The result the launch ends with, on device `d`: the queue's first 512 rows stacked over the batch. -/
abbrev stk (d : Dev nD) : Buf (Elt F) (oLoc d) := Cert.Stacked.stacked (m (qLoc d)) (m (xLoc d))

/-- The subcore's rows: of the queue and of the batch at their launch contents, and of the result at `fo`. -/
def taskRes (fo : Buf (Elt F) (oLoc d)) : sProp 𝕄 :=
  iprop(((qRows L).view.loc (thr d L) ↦[(qRows L).view.set]{fullShare} m (qLoc d))
    ∗ ((xBlk0 L).view.loc (thr d L) ↦[(xBlk0 L).view.set]{fullShare} m (xLoc d))
    ∗ ((xBlk1 L).view.loc (thr d L) ↦[(xBlk1 L).view.set]{fullShare} m (xLoc d))
    ∗ ((xBlk2 L).view.loc (thr d L) ↦[(xBlk2 L).view.set]{fullShare} m (xLoc d))
    ∗ ((xBlk3 L).view.loc (thr d L) ↦[(xBlk3 L).view.set]{fullShare} m (xLoc d))
    ∗ ((oHead L).view.loc (thr d L) ↦[(oHead L).view.set]{fullShare} fo)
    ∗ ((oBlk0 L).view.loc (thr d L) ↦[(oBlk0 L).view.set]{fullShare} fo)
    ∗ ((oBlk1 L).view.loc (thr d L) ↦[(oBlk1 L).view.set]{fullShare} fo)
    ∗ ((oBlk2 L).view.loc (thr d L) ↦[(oBlk2 L).view.set]{fullShare} fo)
    ∗ ((oBlk3 L).view.loc (thr d L) ↦[(oBlk3 L).view.set]{fullShare} fo))

omit [FloatOps F] in
theorem pts_sQ (f : Buf (Elt F) ((thr d L).loc cc0_scratch0)) :
    ((sQ).view.loc (thr d L) ↦{fullShare} f : sProp 𝕄) = ((thr d L).loc cc0_scratch0 ↦{fullShare} f) := rfl
omit [FloatOps F] in
theorem pts_sA (f : Buf (Elt F) ((thr d L).loc cc0_scratch1)) :
    ((sA).view.loc (thr d L) ↦{fullShare} f : sProp 𝕄) = ((thr d L).loc cc0_scratch1 ↦{fullShare} f) := rfl
omit [FloatOps F] in
theorem pts_sB (f : Buf (Elt F) ((thr d L).loc cc0_scratch2)) :
    ((sB).view.loc (thr d L) ↦{fullShare} f : sProp 𝕄) = ((thr d L).loc cc0_scratch2 ↦{fullShare} f) := rfl
omit [FloatOps F] in
theorem pts_sC (f : Buf (Elt F) ((thr d L).loc cc0_scratch3)) :
    ((sC).view.loc (thr d L) ↦{fullShare} f : sProp 𝕄) = ((thr d L).loc cc0_scratch3 ↦{fullShare} f) := rfl

omit F in
/-- A wait at the kernels' index, recorded. -/
theorem waits_ins {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

/-- The offsets of the subcore's pieces, as the value lemmas ask for them. -/
theorem off_head : k0_off3 L 0 = k0_off1 L 0 ∧ k0_off3 L 1 = k0_off1 L 1 ∧ k0_off3 L 0 + 16 ≤ 512 := by
  have h0 : (L 0).val < 2 := (L 0).isLt
  have h1 : (L 1).val < 16 := (L 1).isLt
  rw [k0_off3_eq, k0_off1_eq]
  refine ⟨rfl, rfl, ?_⟩
  show 32 * (L 1).val + 16 * (L 0).val + 16 ≤ 512
  omega
theorem off_blk0 : k0_off5 L 0#32 0 = k0_off2 L 0 + 512 ∧ k0_off5 L 0#32 1 = k0_off2 L 1 := by
  rw [show (0#32 : BitVec 32) = BitVec.ofNat 32 (128 * (0 : Fin 4).val) from rfl, k0_off5_eq, k0_off2_eq]
  exact ⟨by show 1024 * (L 1).val + 512 * (L 0).val + 128 * 0 + 512 = 1024 * (L 1).val + 512 * (L 0).val + 512; omega, rfl⟩
theorem off_blk1 : k0_off5 L 128#32 0 = k0_off4 L 128#32 0 + 512 ∧ k0_off5 L 128#32 1 = k0_off4 L 128#32 1 := by
  rw [show k0_off5 L 128#32 = k0_off5 L (BitVec.ofNat 32 (128 * (1 : Fin 4).val)) from rfl, k0_off5_eq,
    show k0_off4 L 128#32 = k0_off4 L (BitVec.ofNat 32 (128 + 128 * (0 : Fin 3).val)) from rfl, k0_off4_eq]
  exact ⟨by show 1024 * (L 1).val + 512 * (L 0).val + 128 * 1 + 512 = 1024 * (L 1).val + 512 * (L 0).val + 128 * 0 + 128 + 512; omega, rfl⟩
theorem off_blk2 : k0_off5 L 256#32 0 = k0_off4 L 256#32 0 + 512 ∧ k0_off5 L 256#32 1 = k0_off4 L 256#32 1 := by
  rw [show k0_off5 L 256#32 = k0_off5 L (BitVec.ofNat 32 (128 * (2 : Fin 4).val)) from rfl, k0_off5_eq,
    show k0_off4 L 256#32 = k0_off4 L (BitVec.ofNat 32 (128 + 128 * (1 : Fin 3).val)) from rfl, k0_off4_eq]
  exact ⟨by show 1024 * (L 1).val + 512 * (L 0).val + 128 * 2 + 512 = 1024 * (L 1).val + 512 * (L 0).val + 128 * 1 + 128 + 512; omega, rfl⟩
theorem off_blk3 : k0_off5 L 384#32 0 = k0_off4 L 384#32 0 + 512 ∧ k0_off5 L 384#32 1 = k0_off4 L 384#32 1 := by
  rw [show k0_off5 L 384#32 = k0_off5 L (BitVec.ofNat 32 (128 * (3 : Fin 4).val)) from rfl, k0_off5_eq,
    show k0_off4 L 384#32 = k0_off4 L (BitVec.ofNat 32 (128 + 128 * (2 : Fin 3).val)) from rfl, k0_off4_eq]
  exact ⟨by show 1024 * (L 1).val + 512 * (L 0).val + 128 * 3 + 512 = 1024 * (L 1).val + 512 * (L 0).val + 128 * 2 + 128 + 512; omega, rfl⟩

/-- The task on vector subcore `(L 0, L 1)` of device `d`: ten copies and their waits; what it leaves in its rows of the
    result is the stacked array there, whatever they and the scratches held. -/
theorem task_body (hF : (K (F := F)).Facts) (fo : Buf (Elt F) (oLoc d)) (O : CellTallies nD τ sig (HIx 1)) (W : Waits sig (HIx 1)) (hO : ∀ g, O g none = 0) :
    iprop(levAts (K (F := F)).L (K (F := F)).lev ∗ emp ∗ taskRes m d L fo
        ∗ scopedBufs (thr d L) ∗ scopedSems0 (thr d L) ∗ owes (thr d L) O W)
      ⊢ wp frame (wpE (defs₀ (F := F)) 𝒱₀ (thr d L) none) Set.univ
          (cc0__sc_copy L xV (Memref.isWhole_whole _) qV (Memref.isWhole_whole _) oV (Memref.isWhole_whole _)
            sQ (Memref.isWhole_whole _) sA (Memref.isWhole_whole _) sB (Memref.isWhole_whole _) sC (Memref.isWhole_whole _)
            cc0_scratch4 cc0_scratch5 cc0_scratch6 cc0_scratch7 cc0_scratch8 cc0_scratch9 cc0_scratch10)
          fun _ => iprop(taskRes m d L (stk m d) ∗ scopedBufs (thr d L) ∗ scopedSems0 (thr d L)
            ∗ ∃ W', ⌜∀ p ∈ W', p ∈ W ∨ p.2 = none⌝ ∗ owes (thr d L) O W') := by
  simp only [cc0__sc_copy_eq_skeleton]; unfold cc0__sc_copy_skel
  rw [(K (F := F)).scopedBufs_V hF d (cV L) (jV L), SparseCore.Cfg.scopedSems0_V (Val := Elt F) d (cV L) (jV L), ownSems0_task, ownBufs_task]
  unfold taskRes
  iintro ⟨#Hlv, -, ⟨Hq, Hx0, Hx1, Hx2, Hx3, Hoh, Ho0, Ho1, Ho2, Ho3⟩, ⟨⟨%fq, HsQ⟩, ⟨%fa, HsA⟩, ⟨%fb, HsB⟩, ⟨%fc, HsC⟩, Hbufs⟩,
    ⟨Hs4, Hs5, Hs6, Hs7, Hs8, Hs9, Hs10, Hsems⟩, HO⟩
  ihave Hmw := (show levAts (K (F := F)).L (K (F := F)).lev ⊢ Transfers.MayWaits (thr d L) (none : HIx 1) O from
    (K (F := F)).mayWaits_none (thr := thr d L) hO) $$ Hlv
  ihave HsQ' := (Entails.of_eq (pts_sQ (F := F) d L fq).symm) $$ HsQ
  ihave HsA' := (Entails.of_eq (pts_sA (F := F) d L fa).symm) $$ HsA
  ihave HsB' := (Entails.of_eq (pts_sB (F := F) d L fb).symm) $$ HsB
  ihave HsC' := (Entails.of_eq (pts_sC (F := F) d L fc).symm) $$ HsC
  sl_exec
  -- what each copy out left in its piece of the result is the stacked array there
  have vh : ∀ i ∈ (oHead L).view.set, ((oHead L).view.writes (Elt F) fo [⟨Rect.whole S16x256, task_body.sl.dma0_2 m d L fq⟩]) i = stk m d i :=
    head_value (m (qLoc d)) (m (xLoc d)) fo (k0_off3 L) (k0_off1 L) (k0_off3_inb L) (k0_off1_inb L) (off_head L).1 (off_head L).2.1 (off_head L).2.2
      (task_body.sl.dma0_2 m d L fq) (by sl_unfold_run_names; exact View.write_whole_univ cc0_scratch0 _ _)
  have v0 : ∀ i ∈ (oBlk0 L).view.set, ((oBlk0 L).view.writes (Elt F) fo [⟨Rect.whole S128x256, task_body.sl.dma0_4 m d L fa⟩]) i = stk m d i :=
    blk_value (m (qLoc d)) (m (xLoc d)) fo (k0_off5 L 0#32) (k0_off2 L) (k0_off5_inb L 0) (k0_off2_inb L) (off_blk0 L).1 (off_blk0 L).2
      (task_body.sl.dma0_4 m d L fa) (by sl_unfold_run_names; exact View.write_whole_univ cc0_scratch1 _ _)
  have v1 : ∀ i ∈ (oBlk1 L).view.set, ((oBlk1 L).view.writes (Elt F) fo [⟨Rect.whole S128x256, task_body.sl.dma0_6 m d L fb⟩]) i = stk m d i :=
    blk_value (m (qLoc d)) (m (xLoc d)) fo (k0_off5 L 128#32) (k0_off4 L 128#32) (k0_off5_inb L 1) (k0_off4_inb L 0) (off_blk1 L).1 (off_blk1 L).2
      (task_body.sl.dma0_6 m d L fb) (by sl_unfold_run_names; exact View.write_whole_univ cc0_scratch2 _ _)
  have v2 : ∀ i ∈ (oBlk2 L).view.set, ((oBlk2 L).view.writes (Elt F) fo [⟨Rect.whole S128x256, task_body.sl.dma0_8 m d L fc⟩]) i = stk m d i :=
    blk_value (m (qLoc d)) (m (xLoc d)) fo (k0_off5 L 256#32) (k0_off4 L 256#32) (k0_off5_inb L 2) (k0_off4_inb L 1) (off_blk2 L).1 (off_blk2 L).2
      (task_body.sl.dma0_8 m d L fc) (by sl_unfold_run_names; exact View.write_whole_univ cc0_scratch3 _ _)
  have v3 : ∀ i ∈ (oBlk3 L).view.set, ((oBlk3 L).view.writes (Elt F) fo [⟨Rect.whole S128x256, task_body.sl.dma0_9 m d L fa⟩]) i = stk m d i :=
    blk_value (m (qLoc d)) (m (xLoc d)) fo (k0_off5 L 384#32) (k0_off4 L 384#32) (k0_off5_inb L 3) (k0_off4_inb L 2) (off_blk3 L).1 (off_blk3 L).2
      (task_body.sl.dma0_9 m d L fa) (by sl_unfold_run_names; exact View.write_whole_univ cc0_scratch1 _ _)
  ihave Hoh' := (Entails.of_eq (pointsTo_congr vh)) $$ Hoh
  ihave Ho0' := (Entails.of_eq (pointsTo_congr v0)) $$ Ho0
  ihave Ho1' := (Entails.of_eq (pointsTo_congr v1)) $$ Ho1
  ihave Ho2' := (Entails.of_eq (pointsTo_congr v2)) $$ Ho2
  ihave Ho3' := (Entails.of_eq (pointsTo_congr v3)) $$ Ho3
  ihave HsQ := (Entails.of_eq (pts_sQ (F := F) d L _)) $$ HsQ'
  ihave HsA := (Entails.of_eq (pts_sA (F := F) d L _)) $$ HsA'
  ihave HsB := (Entails.of_eq (pts_sB (F := F) d L _)) $$ HsB'
  ihave HsC := (Entails.of_eq (pts_sC (F := F) d L _)) $$ HsC'
  sl_step
  isplitl [Hq Hx0 Hx1 Hx2 Hx3 Hoh' Ho0' Ho1' Ho2' Ho3']
  · isplitl [Hq]; · iexact Hq
    isplitl [Hx0]; · iexact Hx0
    isplitl [Hx1]; · iexact Hx1
    isplitl [Hx2]; · iexact Hx2
    isplitl [Hx3]; · iexact Hx3
    isplitl [Hoh']; · iexact Hoh'
    isplitl [Ho0']; · iexact Ho0'
    isplitl [Ho1']; · iexact Ho1'
    isplitl [Ho2']; · iexact Ho2'
    iexact Ho3'
  isplitl [HsQ HsA HsB HsC Hbufs]
  · isplitl [HsQ]; · iexists _; iexact HsQ
    isplitl [HsA]; · iexists _; iexact HsA
    isplitl [HsB]; · iexists _; iexact HsB
    isplitl [HsC]; · iexists _; iexact HsC
    iexact Hbufs
  isplitl [Hs4 Hs5 Hs6 Hs7 Hs8 Hs9 Hs10 Hsems]
  · isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    iexact Hsems
  iexists _; isplitr
  rotate_left
  · iexact HO
  · ipureintro
    exact waits_ins (waits_ins (waits_ins (waits_ins (waits_ins (waits_ins (waits_ins (waits_ins (waits_ins (waits_ins (fun p hp => Or.inl hp))))))))))

end Task

end Cert.Proof.CopyBits

end
-- ==== Proof.LibRowBands.lean ====
/-
  Full-width bands of rows of a rank-2 shape [R, C]: unit-stride rectangles at offsets (lo, 0) of sizes (n, C).
  A family of such rectangles whose row ranges are pairwise separated has pairwise disjoint element sets; if moreover
  every row lies in some member's range, the element sets cover the shape. General: any family, any index type.
-/
import Idealize.ShloMosaic.Shape

namespace Cert.RowBands

open Idealize.ShloMosaic

variable {R C : ℕ} {T : Type}

/-- Rectangles whose row ranges are separated are pairwise disjoint. -/
theorem disjoint_of_rows (off size : T → Fin 2 → ℕ) (inb : ∀ t a, off t a + size t a ≤ (⟨2, ![R, C]⟩ : Shape).size a)
    (hsep : ∀ t t', t ≠ t' → off t 0 + size t 0 ≤ off t' 0 ∨ off t' 0 + size t' 0 ≤ off t 0) (S : Finset T) :
    ∀ t ∈ S, ∀ t' ∈ S, t ≠ t' →
      Disjoint (Rect.unit (s := ⟨2, ![R, C]⟩) (off t) (size t) (inb t)).set (Rect.unit (s := ⟨2, ![R, C]⟩) (off t') (size t') (inb t')).set :=
  fun t _ t' _ h => Rect.unit_disjoint 0 (hsep t t' h)

/-- Full-width rectangles whose row ranges cover every row cover the shape. -/
theorem cover_of_rows [Fintype T] (off size : T → Fin 2 → ℕ) (inb : ∀ t a, off t a + size t a ≤ (⟨2, ![R, C]⟩ : Shape).size a)
    (hfull : ∀ t, off t 1 = 0 ∧ size t 1 = C) (hcov : ∀ r, r < R → ∃ t, off t 0 ≤ r ∧ r < off t 0 + size t 0) :
    (Finset.univ : Finset T).biUnion (fun t => (Rect.unit (s := ⟨2, ![R, C]⟩) (off t) (size t) (inb t)).set) = Finset.univ := by
  ext i
  simp only [Finset.mem_biUnion, Finset.mem_univ, true_and, iff_true]
  obtain ⟨t, h1, h2⟩ := hcov (i 0).val (i 0).isLt
  refine ⟨t, Rect.mem_set_unit.mpr fun a => ?_⟩
  match a with
  | ⟨0, _⟩ => exact ⟨h1, h2⟩
  | ⟨1, _⟩ =>
    have hi : (i 1).val < C := (i 1).isLt
    show off t 1 ≤ (i 1).val ∧ (i 1).val < off t 1 + size t 1
    rw [(hfull t).1, (hfull t).2]
    omega

end Cert.RowBands
-- ==== Proof.LaunchBits.lean ====
/-
  The launch. The call hands each SparseCore the rows of its sixteen subcores, each subcore its own rows (sixteen of
  the queue, four blocks of the batch, and the matching rows of the result); every subcore runs its task; the rows
  come back with the result's at the stacked array. The whole arrays split into these rows and join again because the
  thirty-two workers' row ranges tile each array: worker w = 2 s + c owns queue rows 16 w .., batch rows 512 w .. in four
  blocks of 128, result rows 16 w .. and 512 + 512 w .. in four blocks of 128; the queue's rows from 512 on are nobody's.
-/
import proofs.«219490_g11244224381196_week1_w3_1464_12_alg».proof.Proof.TaskBits
import proofs.«219490_g11244224381196_week1_w3_1464_12_alg».proof.Proof.LibRowBands

noncomputable section

namespace Cert.Proof.CopyBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch theorem's obligation: every subcore's task -/

def coordsV (c : Fin (grid0.bound 0)) (s : Fin (grid0.bound 1)) : grid0.Coords :=
  fun | 0 => c | 1 => s | ⟨_ + 2, h⟩ => absurd h (Nat.not_lt.2 (Nat.le_add_left _ _))

/-- The grid coordinates of subcore `i` of SparseCore `c` of the call. -/
abbrev coordsK (c : Fin ((K (F := F)).nCore 0)) (i : Fin ((K (F := F)).nSub 0)) : grid0.Coords :=
  coordsV (Fin.cast nCore_zero c) (Fin.cast nSub_zero i)

theorem defs₀_vector (c : Fin τ.nSC) (s : Fin τ.nSub) :
    defs₀ (F := F) (.scVector c s) 0 ()
      = SparseCore.onTile hcore0 hsub0 (fun c s => cc0__sc_copy (coordsV c s)
          xV (Memref.isWhole_whole _) qV (Memref.isWhole_whole _) oV (Memref.isWhole_whole _)
          sQ (Memref.isWhole_whole _) sA (Memref.isWhole_whole _) sB (Memref.isWhole_whole _) sC (Memref.isWhole_whole _)
          cc0_scratch4 cc0_scratch5 cc0_scratch6 cc0_scratch7 cc0_scratch8 cc0_scratch9 cc0_scratch10) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The call's payloads: each subcore its rows, a SparseCore its sixteen subcores' rows; back, the same with the result's
    rows at the stacked array. Nothing of the launch's is consumed. -/
def P : (K (F := F)).Pay (nD := nD) (Val := Elt F) (Name := ℕ) (U := UU) where
  st := fun q d c => match q with
    | 0 => bigSep Finset.univ fun i : Fin ((K (F := F)).nSub 0) => taskRes m d (coordsK c i) (m (oLoc d))
  dn := fun q d c => match q with
    | 0 => bigSep Finset.univ fun i : Fin ((K (F := F)).nSub 0) => taskRes m d (coordsK c i) (stk m d)
  go := fun q d c i => match q with | 0 => taskRes m d (coordsK c i) (m (oLoc d))
  td := fun q d c i => match q with | 0 => taskRes m d (coordsK c i) (stk m d)
  x := fun _ _ => iprop(emp)

instance taskRes_storable (d : Dev nD) (L : grid0.Coords) (fo : Buf (Elt F) (oLoc d)) : BI.Storable (upEmb : UEmb _ 𝕄) (taskRes m d L fo) := by
  unfold taskRes; infer_instance

instance P_storable : (P (F := F) m).IsStorable where
  st q d c := match q with
    | 0 => (inferInstance : BI.Storable (upEmb : UEmb _ 𝕄) (bigSep Finset.univ fun i : Fin ((K (F := F)).nSub 0) => taskRes m d (coordsK c i) (m (oLoc d))))
  dn q d c := match q with
    | 0 => (inferInstance : BI.Storable (upEmb : UEmb _ 𝕄) (bigSep Finset.univ fun i : Fin ((K (F := F)).nSub 0) => taskRes m d (coordsK c i) (stk m d)))
  go q d c i := match q with | 0 => (inferInstance : BI.Storable (upEmb : UEmb _ 𝕄) (taskRes m d (coordsK c i) (m (oLoc d))))
  td q d c i := match q with | 0 => (inferInstance : BI.Storable (upEmb : UEmb _ 𝕄) (taskRes m d (coordsK c i) (stk m d)))

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (task_body m d (coordsK c i) hF (m (oLoc d)) O W hO).trans (wp_mono frame _ _ fun _ => obl_post)

/-- A SparseCore's rows are its subcores' rows, both ways. -/
theorem vecSplit : (K (F := F)).VecSplit' (P m) 0 := by
  intro d c
  show (bigSep Finset.univ fun i : Fin ((K (F := F)).nSub 0) => taskRes m d (coordsK c i) (m (oLoc d))) ⊢ |={Set.univ}=> iprop(
      (bigSep Finset.univ fun i : Fin ((K (F := F)).nSub 0) => taskRes m d (coordsK c i) (m (oLoc d)))
      ∗ ((bigSep Finset.univ fun i : Fin ((K (F := F)).nSub 0) => taskRes m d (coordsK c i) (stk m d))
          -∗ (bigSep Finset.univ fun i : Fin ((K (F := F)).nSub 0) => taskRes m d (coordsK c i) (stk m d))))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.CopyBits

end
-- ==== Proof.RunBits.lean ====
/-
  The run. The whole arrays split into the thirty-two workers' rows and join again, because the workers' row ranges
  tile each array: worker w = 2 s + c owns batch rows 512 w .. in four blocks of 128, queue rows 16 w .., and result rows
  16 w .. and 512 + 512 w .. in four blocks of 128; the queue's rows from 512 on are nobody's and stay with the
  TensorCore. The TensorCore hands the rows out, waits, takes them back with the result's at the stacked array, and the
  final memory is read off: the result is the queue's first 512 rows stacked over the batch, the arguments unchanged.
-/
import proofs.«219490_g11244224381196_week1_w3_1464_12_alg».proof.Proof.LaunchBits

noncomputable section

namespace Cert.Proof.CopyBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The workers' rows tile the arrays -/

/-- A worker: SparseCore `c`, subcore `s`. -/
abbrev Wk : Type := Fin 2 × Fin 16
abbrev co (p : Wk) : grid0.Coords := coordsV p.1 p.2

omit [FloatOps F] in
theorem wk_ne {p p' : Wk} (h : p ≠ p') : p.1.val ≠ p'.1.val ∨ p.2.val ≠ p'.2.val := by
  by_contra hc
  have h1 : p.1.val = p'.1.val := by omega
  have h2 : p.2.val = p'.2.val := by omega
  exact h (Prod.ext (Fin.ext h1) (Fin.ext h2))

/-! ### The batch: 128 blocks of 128 rows, four to a worker -/

def xOff (L : grid0.Coords) : Fin 4 → Fin 2 → ℕ := ![k0_off2 L, k0_off4 L 128#32, k0_off4 L 256#32, k0_off4 L 384#32]

theorem xInb (L : grid0.Coords) : ∀ (k : Fin 4) a, xOff L k a + S128x256.size a ≤ S16384x256.size a := by
  intro k; fin_cases k
  · exact k0_off2_inb L
  · exact k0_off4_inb L 0
  · exact k0_off4_inb L 1
  · exact k0_off4_inb L 2

/-- Block `k` of worker `(c, s)` starts at row 1024 s + 512 c + 128 k and is full width. -/
theorem xOff_row (L : grid0.Coords) (k : Fin 4) : xOff L k 0 = 1024 * (L 1).val + 512 * (L 0).val + 128 * k.val ∧ xOff L k 1 = 0 := by
  fin_cases k
  · show k0_off2 L 0 = _ ∧ k0_off2 L 1 = 0
    rw [k0_off2_eq]; exact ⟨by show 1024 * (L 1).val + 512 * (L 0).val = 1024 * (L 1).val + 512 * (L 0).val + 128 * 0; omega, rfl⟩
  · show k0_off4 L (BitVec.ofNat 32 (128 + 128 * (0 : Fin 3).val)) 0 = _ ∧ k0_off4 L (BitVec.ofNat 32 (128 + 128 * (0 : Fin 3).val)) 1 = 0
    rw [k0_off4_eq]; exact ⟨by show 1024 * (L 1).val + 512 * (L 0).val + 128 * 0 + 128 = 1024 * (L 1).val + 512 * (L 0).val + 128 * 1; omega, rfl⟩
  · show k0_off4 L (BitVec.ofNat 32 (128 + 128 * (1 : Fin 3).val)) 0 = _ ∧ k0_off4 L (BitVec.ofNat 32 (128 + 128 * (1 : Fin 3).val)) 1 = 0
    rw [k0_off4_eq]; exact ⟨by show 1024 * (L 1).val + 512 * (L 0).val + 128 * 1 + 128 = 1024 * (L 1).val + 512 * (L 0).val + 128 * 2; omega, rfl⟩
  · show k0_off4 L (BitVec.ofNat 32 (128 + 128 * (2 : Fin 3).val)) 0 = _ ∧ k0_off4 L (BitVec.ofNat 32 (128 + 128 * (2 : Fin 3).val)) 1 = 0
    rw [k0_off4_eq]; exact ⟨by show 1024 * (L 1).val + 512 * (L 0).val + 128 * 2 + 128 = 1024 * (L 1).val + 512 * (L 0).val + 128 * 3; omega, rfl⟩

abbrev xSet (L : grid0.Coords) (k : Fin 4) : Finset S16384x256.Idx := (Rect.unit (s := S16384x256) (xOff L k) S128x256.size (xInb L k)).set

theorem x_disj : ∀ t ∈ (Finset.univ : Finset (Wk × Fin 4)), ∀ t' ∈ (Finset.univ : Finset (Wk × Fin 4)), t ≠ t' →
    Disjoint (xSet (co t.1) t.2) (xSet (co t'.1) t'.2) := by
  refine Cert.RowBands.disjoint_of_rows (R := 16384) (C := 256) (fun t : Wk × Fin 4 => xOff (co t.1) t.2) (fun _ => S128x256.size)
    (fun t => xInb (co t.1) t.2) (fun t t' hne => ?_) Finset.univ
  show xOff (co t.1) t.2 0 + 128 ≤ xOff (co t'.1) t'.2 0 ∨ xOff (co t'.1) t'.2 0 + 128 ≤ xOff (co t.1) t.2 0
  rw [(xOff_row (co t.1) t.2).1, (xOff_row (co t'.1) t'.2).1]
  show 1024 * t.1.2.val + 512 * t.1.1.val + 128 * t.2.val + 128 ≤ 1024 * t'.1.2.val + 512 * t'.1.1.val + 128 * t'.2.val
    ∨ 1024 * t'.1.2.val + 512 * t'.1.1.val + 128 * t'.2.val + 128 ≤ 1024 * t.1.2.val + 512 * t.1.1.val + 128 * t.2.val
  have hc : t.1.1.val < 2 := t.1.1.isLt
  have hc' : t'.1.1.val < 2 := t'.1.1.isLt
  have hk : t.2.val < 4 := t.2.isLt
  have hk' : t'.2.val < 4 := t'.2.isLt
  have hd : t.1.1.val ≠ t'.1.1.val ∨ t.1.2.val ≠ t'.1.2.val ∨ t.2.val ≠ t'.2.val := by
    by_contra hcon
    have h1 : t.1.1.val = t'.1.1.val := by omega
    have h2 : t.1.2.val = t'.1.2.val := by omega
    have h3 : t.2.val = t'.2.val := by omega
    exact hne (Prod.ext (Prod.ext (Fin.ext h1) (Fin.ext h2)) (Fin.ext h3))
  omega

theorem x_cover : (Finset.univ : Finset (Wk × Fin 4)).biUnion (fun t => xSet (co t.1) t.2) = Finset.univ := by
  refine Cert.RowBands.cover_of_rows (R := 16384) (C := 256) (fun t : Wk × Fin 4 => xOff (co t.1) t.2) (fun _ => S128x256.size)
    (fun t => xInb (co t.1) t.2) (fun t => ⟨(xOff_row (co t.1) t.2).2, rfl⟩) (fun r hr => ?_)
  refine ⟨((⟨r % 1024 / 512, by omega⟩, ⟨r / 1024, by omega⟩), ⟨r % 512 / 128, by omega⟩), ?_⟩
  show xOff _ _ 0 ≤ r ∧ r < xOff _ _ 0 + 128
  rw [(xOff_row _ _).1]
  show 1024 * (r / 1024) + 512 * (r % 1024 / 512) + 128 * (r % 512 / 128) ≤ r ∧ r < 1024 * (r / 1024) + 512 * (r % 1024 / 512) + 128 * (r % 512 / 128) + 128
  omega

omit [FloatOps F] in
/-- The batch is its workers' blocks. -/
theorem x_split (d : Dev nD) (f : Buf (Elt F) (xLoc d)) :
    (xLoc d ↦{fullShare} f : sProp 𝕄)
      = bigSep Finset.univ fun p : Wk => iprop((xLoc d ↦[xSet (co p) 0]{fullShare} f) ∗ (xLoc d ↦[xSet (co p) 1]{fullShare} f)
          ∗ (xLoc d ↦[xSet (co p) 2]{fullShare} f) ∗ (xLoc d ↦[xSet (co p) 3]{fullShare} f)) := by
  have e : (xLoc d ↦{fullShare} f : sProp 𝕄) = bigSep Finset.univ fun t : Wk × Fin 4 => xLoc d ↦[xSet (co t.1) t.2]{fullShare} f := by
    rw [← pointsTo_biUnion Finset.univ (ℓ := xLoc d) (fun t : Wk × Fin 4 => xSet (co t.1) t.2) x_disj, x_cover]; try rfl
  rw [e, bigSep_univ_prod]
  refine bigSep_congr fun p _ => ?_
  rw [show (Finset.univ : Finset (Fin 4)) = {0, 1, 2, 3} by decide, SparseCore.bigSep_insert' (by decide), SparseCore.bigSep_insert' (by decide),
    SparseCore.bigSep_insert' (by decide), bigSep_singleton]

/-! ### The queue: sixteen rows to a worker; the rows from 512 on are nobody's -/

def qOff : Wk ⊕ Unit → Fin 2 → ℕ
  | .inl p => k0_off1 (co p)
  | .inr _ => ![512, 0]
def qSize : Wk ⊕ Unit → Fin 2 → ℕ
  | .inl _ => S16x256.size
  | .inr _ => ![130560, 256]
theorem qInb : ∀ (t : Wk ⊕ Unit) a, qOff t a + qSize t a ≤ S131072x256.size a
  | .inl p => k0_off1_inb (co p)
  | .inr _ => by
    intro a; fin_cases a
    · show 512 + 130560 ≤ 131072; omega
    · show 0 + 256 ≤ 256; omega

abbrev qSetT (t : Wk ⊕ Unit) : Finset S131072x256.Idx := (Rect.unit (s := S131072x256) (qOff t) (qSize t) (qInb t)).set
abbrev qSet (L : grid0.Coords) : Finset S131072x256.Idx := (Rect.unit (s := S131072x256) (k0_off1 L) S16x256.size (k0_off1_inb L)).set
abbrev qRest : Finset S131072x256.Idx := qSetT (.inr ())

theorem q_row (p : Wk) : k0_off1 (co p) 0 = 32 * p.2.val + 16 * p.1.val ∧ k0_off1 (co p) 1 = 0 := by
  rw [k0_off1_eq]; exact ⟨rfl, rfl⟩

theorem q_disj : ∀ t ∈ (Finset.univ : Finset (Wk ⊕ Unit)), ∀ t' ∈ (Finset.univ : Finset (Wk ⊕ Unit)), t ≠ t' → Disjoint (qSetT t) (qSetT t') := by
  refine Cert.RowBands.disjoint_of_rows (R := 131072) (C := 256) qOff qSize qInb (fun t t' hne => ?_) Finset.univ
  rcases t with p | u <;> rcases t' with p' | u'
  · show k0_off1 (co p) 0 + 16 ≤ k0_off1 (co p') 0 ∨ k0_off1 (co p') 0 + 16 ≤ k0_off1 (co p) 0
    rw [(q_row p).1, (q_row p').1]
    have hd := wk_ne (fun h => hne (congrArg Sum.inl h))
    have h1 : p.1.val < 2 := p.1.isLt
    have h2 : p'.1.val < 2 := p'.1.isLt
    omega
  · show k0_off1 (co p) 0 + 16 ≤ 512 ∨ 512 + 130560 ≤ k0_off1 (co p) 0
    rw [(q_row p).1]
    have h1 : p.1.val < 2 := p.1.isLt
    have h2 : p.2.val < 16 := p.2.isLt
    omega
  · show 512 + 130560 ≤ k0_off1 (co p') 0 ∨ k0_off1 (co p') 0 + 16 ≤ 512
    rw [(q_row p').1]
    have h1 : p'.1.val < 2 := p'.1.isLt
    have h2 : p'.2.val < 16 := p'.2.isLt
    omega
  · exact absurd rfl hne

theorem q_cover : (Finset.univ : Finset (Wk ⊕ Unit)).biUnion qSetT = Finset.univ := by
  refine Cert.RowBands.cover_of_rows (R := 131072) (C := 256) qOff qSize qInb (fun t => ?_) (fun r hr => ?_)
  · rcases t with p | u
    · exact ⟨(q_row p).2, rfl⟩
    · exact ⟨rfl, rfl⟩
  · by_cases h : r < 512
    · refine ⟨.inl (⟨r % 32 / 16, by omega⟩, ⟨r / 32, by omega⟩), ?_⟩
      show k0_off1 _ 0 ≤ r ∧ r < k0_off1 _ 0 + 16
      rw [(q_row _).1]
      show 32 * (r / 32) + 16 * (r % 32 / 16) ≤ r ∧ r < 32 * (r / 32) + 16 * (r % 32 / 16) + 16
      omega
    · refine ⟨.inr (), ?_⟩
      show 512 ≤ r ∧ r < 512 + 130560
      omega

omit [FloatOps F] in
/-- The queue is its workers' rows and the rest. -/
theorem q_split (d : Dev nD) (f : Buf (Elt F) (qLoc d)) :
    (qLoc d ↦{fullShare} f : sProp 𝕄)
      = iprop((bigSep Finset.univ fun p : Wk => qLoc d ↦[qSet (co p)]{fullShare} f) ∗ qLoc d ↦[qRest]{fullShare} f) := by
  have e : (qLoc d ↦{fullShare} f : sProp 𝕄) = bigSep Finset.univ fun t : Wk ⊕ Unit => qLoc d ↦[qSetT t]{fullShare} f := by
    rw [← pointsTo_biUnion Finset.univ (ℓ := qLoc d) qSetT q_disj, q_cover]; try rfl
  rw [e, bigSep_univ_sum, bigSep_univ_of_subsingleton ()]
  rfl

/-! ### The result: sixteen head rows and four blocks of 128 rows to a worker -/

def oOff (L : grid0.Coords) : Fin 5 → Fin 2 → ℕ := ![k0_off3 L, k0_off5 L 0#32, k0_off5 L 128#32, k0_off5 L 256#32, k0_off5 L 384#32]
def oSize : Fin 5 → Fin 2 → ℕ := ![S16x256.size, S128x256.size, S128x256.size, S128x256.size, S128x256.size]

theorem oInb (L : grid0.Coords) : ∀ (k : Fin 5) a, oOff L k a + oSize k a ≤ S16896x256.size a := by
  intro k; fin_cases k
  · exact k0_off3_inb L
  · exact k0_off5_inb L 0
  · exact k0_off5_inb L 1
  · exact k0_off5_inb L 2
  · exact k0_off5_inb L 3

/-- Piece 0 of worker `(c, s)` is rows 32 s + 16 c .. + 16; piece k ≥ 1 is rows 512 + 1024 s + 512 c + 128 (k - 1) .. + 128. -/
theorem oOff_row (L : grid0.Coords) (k : Fin 5) :
    ((k.val = 0 ∧ oOff L k 0 = 32 * (L 1).val + 16 * (L 0).val ∧ oSize k 0 = 16)
      ∨ (1 ≤ k.val ∧ oOff L k 0 = 1024 * (L 1).val + 512 * (L 0).val + 128 * (k.val - 1) + 512 ∧ oSize k 0 = 128))
    ∧ oOff L k 1 = 0 ∧ oSize k 1 = 256 := by
  fin_cases k
  · refine ⟨.inl ⟨rfl, ?_, rfl⟩, ?_, rfl⟩
    · show k0_off3 L 0 = _; rw [k0_off3_eq]; rfl
    · show k0_off3 L 1 = 0; rw [k0_off3_eq]; rfl
  · refine ⟨.inr ⟨by decide, ?_, rfl⟩, ?_, rfl⟩
    · show k0_off5 L (BitVec.ofNat 32 (128 * (0 : Fin 4).val)) 0 = _; rw [k0_off5_eq]; rfl
    · show k0_off5 L (BitVec.ofNat 32 (128 * (0 : Fin 4).val)) 1 = 0; rw [k0_off5_eq]; rfl
  · refine ⟨.inr ⟨by decide, ?_, rfl⟩, ?_, rfl⟩
    · show k0_off5 L (BitVec.ofNat 32 (128 * (1 : Fin 4).val)) 0 = _; rw [k0_off5_eq]; rfl
    · show k0_off5 L (BitVec.ofNat 32 (128 * (1 : Fin 4).val)) 1 = 0; rw [k0_off5_eq]; rfl
  · refine ⟨.inr ⟨by decide, ?_, rfl⟩, ?_, rfl⟩
    · show k0_off5 L (BitVec.ofNat 32 (128 * (2 : Fin 4).val)) 0 = _; rw [k0_off5_eq]; rfl
    · show k0_off5 L (BitVec.ofNat 32 (128 * (2 : Fin 4).val)) 1 = 0; rw [k0_off5_eq]; rfl
  · refine ⟨.inr ⟨by decide, ?_, rfl⟩, ?_, rfl⟩
    · show k0_off5 L (BitVec.ofNat 32 (128 * (3 : Fin 4).val)) 0 = _; rw [k0_off5_eq]; rfl
    · show k0_off5 L (BitVec.ofNat 32 (128 * (3 : Fin 4).val)) 1 = 0; rw [k0_off5_eq]; rfl

abbrev oSet (L : grid0.Coords) (k : Fin 5) : Finset S16896x256.Idx := (Rect.unit (s := S16896x256) (oOff L k) (oSize k) (oInb L k)).set

theorem o_disj : ∀ t ∈ (Finset.univ : Finset (Wk × Fin 5)), ∀ t' ∈ (Finset.univ : Finset (Wk × Fin 5)), t ≠ t' →
    Disjoint (oSet (co t.1) t.2) (oSet (co t'.1) t'.2) := by
  refine Cert.RowBands.disjoint_of_rows (R := 16896) (C := 256) (fun t : Wk × Fin 5 => oOff (co t.1) t.2) (fun t => oSize t.2)
    (fun t => oInb (co t.1) t.2) (fun t t' hne => ?_) Finset.univ
  show oOff (co t.1) t.2 0 + oSize t.2 0 ≤ oOff (co t'.1) t'.2 0 ∨ oOff (co t'.1) t'.2 0 + oSize t'.2 0 ≤ oOff (co t.1) t.2 0
  have hc : t.1.1.val < 2 := t.1.1.isLt
  have hc' : t'.1.1.val < 2 := t'.1.1.isLt
  have hs : t.1.2.val < 16 := t.1.2.isLt
  have hs' : t'.1.2.val < 16 := t'.1.2.isLt
  have hk : t.2.val < 5 := t.2.isLt
  have hk' : t'.2.val < 5 := t'.2.isLt
  have hd : t.1.1.val ≠ t'.1.1.val ∨ t.1.2.val ≠ t'.1.2.val ∨ t.2.val ≠ t'.2.val := by
    by_contra hcon
    have h1 : t.1.1.val = t'.1.1.val := by omega
    have h2 : t.1.2.val = t'.1.2.val := by omega
    have h3 : t.2.val = t'.2.val := by omega
    exact hne (Prod.ext (Prod.ext (Fin.ext h1) (Fin.ext h2)) (Fin.ext h3))
  have e1 : ((co t.1) 1).val = t.1.2.val ∧ ((co t.1) 0).val = t.1.1.val := ⟨rfl, rfl⟩
  have e2 : ((co t'.1) 1).val = t'.1.2.val ∧ ((co t'.1) 0).val = t'.1.1.val := ⟨rfl, rfl⟩
  rcases (oOff_row (co t.1) t.2).1 with ⟨k0, ho, hn⟩ | ⟨k1, ho, hn⟩ <;> rcases (oOff_row (co t'.1) t'.2).1 with ⟨k0', ho', hn'⟩ | ⟨k1', ho', hn'⟩ <;>
    rw [ho, hn, ho', hn', e1.1, e1.2, e2.1, e2.2] <;> omega

theorem o_cover : (Finset.univ : Finset (Wk × Fin 5)).biUnion (fun t => oSet (co t.1) t.2) = Finset.univ := by
  refine Cert.RowBands.cover_of_rows (R := 16896) (C := 256) (fun t : Wk × Fin 5 => oOff (co t.1) t.2) (fun t => oSize t.2)
    (fun t => oInb (co t.1) t.2) (fun t => (oOff_row (co t.1) t.2).2) (fun r hr => ?_)
  by_cases h : r < 512
  · refine ⟨((⟨r % 32 / 16, by omega⟩, ⟨r / 32, by omega⟩), ⟨0, by omega⟩), ?_⟩
    show oOff _ _ 0 ≤ r ∧ r < oOff _ _ 0 + oSize _ 0
    rcases (oOff_row (co (⟨r % 32 / 16, by omega⟩, ⟨r / 32, by omega⟩)) ⟨0, by omega⟩).1 with ⟨-, ho, hn⟩ | ⟨k1, -, -⟩
    · rw [ho, hn]
      show 32 * (r / 32) + 16 * (r % 32 / 16) ≤ r ∧ r < 32 * (r / 32) + 16 * (r % 32 / 16) + 16
      omega
    · exact absurd k1 (Nat.not_succ_le_zero 0)
  · refine ⟨((⟨(r - 512) % 1024 / 512, by omega⟩, ⟨(r - 512) / 1024, by omega⟩), ⟨(r - 512) % 512 / 128 + 1, by omega⟩), ?_⟩
    show oOff _ _ 0 ≤ r ∧ r < oOff _ _ 0 + oSize _ 0
    rcases (oOff_row (co (⟨(r - 512) % 1024 / 512, by omega⟩, ⟨(r - 512) / 1024, by omega⟩)) ⟨(r - 512) % 512 / 128 + 1, by omega⟩).1 with ⟨k0, -, -⟩ | ⟨-, ho, hn⟩
    · exact absurd k0 (Nat.succ_ne_zero _)
    · rw [ho, hn]
      show 1024 * ((r - 512) / 1024) + 512 * ((r - 512) % 1024 / 512) + 128 * ((r - 512) % 512 / 128 + 1 - 1) + 512 ≤ r
        ∧ r < 1024 * ((r - 512) / 1024) + 512 * ((r - 512) % 1024 / 512) + 128 * ((r - 512) % 512 / 128 + 1 - 1) + 512 + 128
      omega

omit [FloatOps F] in
/-- The result is its workers' pieces. -/
theorem o_split (d : Dev nD) (f : Buf (Elt F) (oLoc d)) :
    (oLoc d ↦{fullShare} f : sProp 𝕄)
      = bigSep Finset.univ fun p : Wk => iprop((oLoc d ↦[oSet (co p) 0]{fullShare} f) ∗ (oLoc d ↦[oSet (co p) 1]{fullShare} f)
          ∗ (oLoc d ↦[oSet (co p) 2]{fullShare} f) ∗ (oLoc d ↦[oSet (co p) 3]{fullShare} f) ∗ (oLoc d ↦[oSet (co p) 4]{fullShare} f)) := by
  have e : (oLoc d ↦{fullShare} f : sProp 𝕄) = bigSep Finset.univ fun t : Wk × Fin 5 => oLoc d ↦[oSet (co t.1) t.2]{fullShare} f := by
    rw [← pointsTo_biUnion Finset.univ (ℓ := oLoc d) (fun t : Wk × Fin 5 => oSet (co t.1) t.2) o_disj, o_cover]; try rfl
  rw [e, bigSep_univ_prod]
  refine bigSep_congr fun p _ => ?_
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

/-! ## A worker's rows are rows of the arrays -/

theorem taskRes_rows (d : Dev nD) (p : Wk) (fo : Buf (Elt F) (oLoc d)) :
    taskRes m d (co p) fo
      = iprop((qLoc d ↦[qSet (co p)]{fullShare} m (qLoc d))
          ∗ (xLoc d ↦[xSet (co p) 0]{fullShare} m (xLoc d)) ∗ (xLoc d ↦[xSet (co p) 1]{fullShare} m (xLoc d))
          ∗ (xLoc d ↦[xSet (co p) 2]{fullShare} m (xLoc d)) ∗ (xLoc d ↦[xSet (co p) 3]{fullShare} m (xLoc d))
          ∗ (oLoc d ↦[oSet (co p) 0]{fullShare} fo) ∗ (oLoc d ↦[oSet (co p) 1]{fullShare} fo) ∗ (oLoc d ↦[oSet (co p) 2]{fullShare} fo)
          ∗ (oLoc d ↦[oSet (co p) 3]{fullShare} fo) ∗ (oLoc d ↦[oSet (co p) 4]{fullShare} fo)) := by
  unfold taskRes
  rw [show (qRows (co p)).view.set = qSet (co p) from View.set_slice_whole _ _,
    show (xBlk0 (co p)).view.set = xSet (co p) 0 from View.set_slice_whole _ _,
    show (xBlk1 (co p)).view.set = xSet (co p) 1 from View.set_slice_whole _ _,
    show (xBlk2 (co p)).view.set = xSet (co p) 2 from View.set_slice_whole _ _,
    show (xBlk3 (co p)).view.set = xSet (co p) 3 from View.set_slice_whole _ _,
    show (oHead (co p)).view.set = oSet (co p) 0 from View.set_slice_whole _ _,
    show (oBlk0 (co p)).view.set = oSet (co p) 1 from View.set_slice_whole _ _,
    show (oBlk1 (co p)).view.set = oSet (co p) 2 from View.set_slice_whole _ _,
    show (oBlk2 (co p)).view.set = oSet (co p) 3 from View.set_slice_whole _ _,
    show (oBlk3 (co p)).view.set = oSet (co p) 4 from View.set_slice_whole _ _]

/-- The three arrays whole, dealt out as the workers' rows (and the queue's unowned rest), -/
theorem rows_out (d : Dev nD) (fo : Buf (Elt F) (oLoc d)) :
    iprop((xLoc d ↦{fullShare} m (xLoc d)) ∗ (qLoc d ↦{fullShare} m (qLoc d)) ∗ (oLoc d ↦{fullShare} fo))
      ⊢ (iprop((bigSep Finset.univ fun p : Wk => taskRes m d (co p) fo) ∗ qLoc d ↦[qRest]{fullShare} m (qLoc d)) : sProp 𝕄) := by
  rw [x_split, q_split, o_split, bigSep_congr (fun p _ => taskRes_rows m d p fo)]
  simp only [bigSep_sep']
  iintro ⟨⟨X0, X1, X2, X3⟩, ⟨Q, QR⟩, ⟨O0, O1, O2, O3, O4⟩⟩
  isplitr [QR]
  · isplitl [Q]; · iexact Q
    isplitl [X0]; · iexact X0
    isplitl [X1]; · iexact X1
    isplitl [X2]; · iexact X2
    isplitl [X3]; · iexact X3
    isplitl [O0]; · iexact O0
    isplitl [O1]; · iexact O1
    isplitl [O2]; · iexact O2
    isplitl [O3]; · iexact O3
    iexact O4
  · iexact QR

/-- and gathered again. -/
theorem rows_back (d : Dev nD) (fo : Buf (Elt F) (oLoc d)) :
    (iprop((bigSep Finset.univ fun p : Wk => taskRes m d (co p) fo) ∗ qLoc d ↦[qRest]{fullShare} m (qLoc d)) : sProp 𝕄)
      ⊢ iprop((xLoc d ↦{fullShare} m (xLoc d)) ∗ (qLoc d ↦{fullShare} m (qLoc d)) ∗ (oLoc d ↦{fullShare} fo)) := by
  rw [x_split, q_split, o_split, bigSep_congr (fun p _ => taskRes_rows m d p fo)]
  simp only [bigSep_sep']
  iintro ⟨⟨Q, X0, X1, X2, X3, O0, O1, O2, O3, O4⟩, QR⟩
  isplitl [X0 X1 X2 X3]
  · isplitl [X0]; · iexact X0
    isplitl [X1]; · iexact X1
    isplitl [X2]; · iexact X2
    iexact X3
  isplitl [Q QR]
  · isplitl [Q]; · iexact Q
    iexact QR
  isplitl [O0]; · iexact O0
  isplitl [O1]; · iexact O1
  isplitl [O2]; · iexact O2
  isplitl [O3]; · iexact O3
  iexact O4

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (qLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) :
    (bigSep Finset.univ fun c : Fin ((K (F := F)).nCore 0) => (P m).st 0 d c) = bigSep Finset.univ fun p : Wk => taskRes m d (co p) (m (oLoc d)) := by
  rw [bigSep_univ_prod]; rfl
theorem dn0_eq (d : Dev nD) :
    (bigSep Finset.univ fun c : Fin ((K (F := F)).nCore 0) => (P m).dn 0 d c) = bigSep Finset.univ fun p : Wk => taskRes m d (co p) (stk m d) := by
  rw [bigSep_univ_prod]; rfl

/-- What @main leaves the claim: the arguments at their launch contents, the result at the stacked array. -/
abbrev FIN (d : Dev nD) : sProp 𝕄 := iprop((xLoc d ↦{fullShare} m (xLoc d)) ∗ (qLoc d ↦{fullShare} m (qLoc d)) ∗ (oLoc d ↦{fullShare} stk m d))

/-- @main on device `d`'s TensorCore: the one call, the arrays dealt out before it and gathered after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hq, Ho⟩, -, -⟩, -⟩
  ihave Hsp := (rows_out m d (m (oLoc d))) $$ [Hx Hq Ho]
  · isplitl [Hx]; · iexact Hx
    isplitl [Hq]; · iexact Hq
    iexact Ho
  icases Hsp with ⟨Htasks, Hqr⟩
  iapply ((K (F := F)).wp_run (D (F := F)) 𝒱 (EH := EH) (P := P m) κ d 0) $$ [Hst Htasks Hqr]
  isplitr; · iexact Hctx
  isplitl [Hst]; · iexact Hst
  isplitl [Htasks]
  · rw [st0_eq]; iexact Htasks
  iintro ⟨Hst, Hdn⟩
  ihave Hdn' := (Entails.of_eq (dn0_eq m d)) $$ Hdn
  ihave Hj := (rows_back m d (stk m d)) $$ [Hdn' Hqr]
  · isplitl [Hdn']; · iexact Hdn'
    iexact Hqr
  icases Hj with ⟨Hx, Hq, Ho⟩
  imodintro
  isplitl [Hst]; · iexact Hst
  isplitl [Hx]; · iexact Hx
  isplitl [Hq]; · iexact Hq
  iexact Ho

def fq (d : Dev nD) (s' : Phys nD τ sig (Elt F)) : Prop :=
  s'.mem.mem (oLoc d) = stk m d ∧ s'.mem.mem (xLoc d) = m (xLoc d) ∧ s'.mem.mem (qLoc d) = m (qLoc d)

theorem hfin (d : Dev nD) (s' : Phys nD τ sig (Elt F)) : iprop(FIN m d ∗ SI s') ⊢ (⌜fq m d s'⌝ : sProp 𝕄) := by
  iintro ⟨⟨Hx, Hq, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := qLoc d) (I := Finset.univ) (q := fullShare) (f := m (qLoc d)))) $$ [HSI Hq]
  · isplitl [HSI] <;> iassumption
  icases H with ⟨%h2, HSI, -⟩
  ihave H := (SI_pointsTo_agree (st := s') (ℓ := oLoc d) (I := Finset.univ) (q := fullShare) (f := stk m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = stk m c ∧ r.2.mem (xLoc c) = m (xLoc c) ∧ r.2.mem (qLoc c) = m (qLoc c)

/-- Every weakly fair execution of the device's threads terminates, nothing faulting, with the result at the queue's
    first 512 rows stacked over the batch and the arguments unchanged. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.CopyBits

end
-- ==== Proof.TaskIdeal.lean ====
/-
  One vector subcore's task. Subcore s of SparseCore c is worker w = 2 s + c of thirty-two. It moves sixteen rows of
  the queue (rows 16 w ..) through a scratch of its own into the same rows of the result, and four blocks of 128 rows
  of the batch (rows 512 w + 128 k ..) through three scratches used in rotation into rows 512 + 512 w + 128 k .. of
  the result. Every copy has a semaphore to itself while it is in flight, and no scratch is written again before
  the copy out of it has been waited for.
-/
import proofs.«219490_g11244224381196_week1_w3_1464_12_alg».proof.Defs
import Idealize.ShloMosaic.Lib.SparseCore.Launch
import Idealize.ShloMosaic.Lib.StableHlo.Run
import Idealize.ShloMosaic.Lib.Pipeline.Kit
import Idealize.ShloMosaic.Lib.Tactic
import proofs.«219490_g11244224381196_week1_w3_1464_12_alg».proof.Proof.Gen.KernelIdeal
import proofs.«219490_g11244224381196_week1_w3_1464_12_alg».proof.Proof.Gen.KernelIdeal.Skeleton
import proofs.«219490_g11244224381196_week1_w3_1464_12_alg».proof.Proof.Stacked

noncomputable section

namespace Cert.Proof.CopyIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the local copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and one subcore's pieces of them -/

variable (m : (ℓ : Loc nD τ sig) → Buf (Elt F) ℓ) (ρ : Dev nD → PrngReg)

abbrev xLoc (d : Dev nD) : Loc nD τ sig := (SparseCore.T d).loc main_arg0
abbrev qLoc (d : Dev nD) : Loc nD τ sig := (SparseCore.T d).loc main_arg1
abbrev oLoc (d : Dev nD) : Loc nD τ sig := (SparseCore.T d).loc main_v0

abbrev xV : Memref sig .scVector .hbm S16384x256 .f32 := Memref.whole main_arg0_scv
abbrev qV : Memref sig .scVector .hbm S131072x256 .f32 := Memref.whole main_arg1_scv
abbrev oV : Memref sig .scVector .hbm S16896x256 .f32 := Memref.whole main_v0_scv
abbrev sQ : Memref sig .scVector .vmem S16x256 .f32 := Memref.whole cc0_scratch0
abbrev sA : Memref sig .scVector .vmem S128x256 .f32 := Memref.whole cc0_scratch1
abbrev sB : Memref sig .scVector .vmem S128x256 .f32 := Memref.whole cc0_scratch2
abbrev sC : Memref sig .scVector .vmem S128x256 .f32 := Memref.whole cc0_scratch3

/-! ## What a copied piece holds

A piece of the result written whole from a piece of the queue at the same rows, or from a piece of the batch 512 rows
up, holds the stacked array's elements. Stated at any offsets, so that the printed offset functions instantiate them. -/

section Values

variable (fq : S131072x256.Idx → Elt F .f32) (fx : S16384x256.Idx → Elt F .f32) (fo : S16896x256.Idx → Elt F .f32)

theorem head_value (offo offq : Fin 2 → Nat) (inbo : ∀ a, offo a + S16x256.size a ≤ S16896x256.size a)
    (inbq : ∀ a, offq a + S16x256.size a ≤ S131072x256.size a) (h0 : offo 0 = offq 0) (h1 : offo 1 = offq 1) (hlt : offo 0 + 16 ≤ 512)
    (w : S16x256.Idx → Elt F .f32) (hw : w = ((qV).slice (Rect.unit (s := S131072x256) offq S16x256.size inbq) (fun _ => rfl)).view.read (Elt F) fq) :
    ∀ i ∈ ((oV).slice (Rect.unit (s := S16896x256) offo S16x256.size inbo) (fun _ => rfl)).view.set,
      (((oV).slice (Rect.unit (s := S16896x256) offo S16x256.size inbo) (fun _ => rfl)).view.writes (Elt F) fo
        [⟨Rect.whole S16x256, w⟩]) i
      = Cert.Stacked.stacked fq fx i := by
  subst hw
  intro i hi
  obtain ⟨y, -, rfl⟩ := Finset.mem_map.mp hi
  have h := View.read_writes_cons_emb ((oV).slice (Rect.unit (s := S16896x256) offo S16x256.size inbo) (fun _ => rfl)).view fo (Rect.whole S16x256)
    (((qV).slice (Rect.unit (s := S131072x256) offq S16x256.size inbq) (fun _ => rfl)).view.read (Elt F) fq) [] y
  have e : (Rect.whole S16x256).emb y = y := Rect.emb_whole_apply S16x256 y
  rw [e, View.read_apply, View.read_apply] at h
  refine ((cast_eq _ _).symm.trans h).trans ((cast_eq _ _).trans ?_)
  have hy0 : (y 0).val < 16 := (y 0).isLt
  refine (Cert.Stacked.stacked_head fq fx _ _ ?_ ?_ ?_).symm
  · show offo 0 + 1 * (y 0).val = offq 0 + 1 * (y 0).val
    omega
  · show offo 1 + 1 * (y 1).val = offq 1 + 1 * (y 1).val
    omega
  · show offo 0 + 1 * (y 0).val < 512
    omega

theorem blk_value (offo offx : Fin 2 → Nat) (inbo : ∀ a, offo a + S128x256.size a ≤ S16896x256.size a)
    (inbx : ∀ a, offx a + S128x256.size a ≤ S16384x256.size a) (h0 : offo 0 = offx 0 + 512) (h1 : offo 1 = offx 1)
    (w : S128x256.Idx → Elt F .f32) (hw : w = ((xV).slice (Rect.unit (s := S16384x256) offx S128x256.size inbx) (fun _ => rfl)).view.read (Elt F) fx) :
    ∀ i ∈ ((oV).slice (Rect.unit (s := S16896x256) offo S128x256.size inbo) (fun _ => rfl)).view.set,
      (((oV).slice (Rect.unit (s := S16896x256) offo S128x256.size inbo) (fun _ => rfl)).view.writes (Elt F) fo
        [⟨Rect.whole S128x256, w⟩]) i
      = Cert.Stacked.stacked fq fx i := by
  subst hw
  intro i hi
  obtain ⟨y, -, rfl⟩ := Finset.mem_map.mp hi
  have h := View.read_writes_cons_emb ((oV).slice (Rect.unit (s := S16896x256) offo S128x256.size inbo) (fun _ => rfl)).view fo (Rect.whole S128x256)
    (((xV).slice (Rect.unit (s := S16384x256) offx S128x256.size inbx) (fun _ => rfl)).view.read (Elt F) fx) [] y
  have e : (Rect.whole S128x256).emb y = y := Rect.emb_whole_apply S128x256 y
  rw [e, View.read_apply, View.read_apply] at h
  refine ((cast_eq _ _).symm.trans h).trans ((cast_eq _ _).trans ?_)
  refine (Cert.Stacked.stacked_tail fq fx _ _ ?_ ?_).symm
  · show offo 0 + 1 * (y 0).val = offx 0 + 1 * (y 0).val + 512
    omega
  · show offo 1 + 1 * (y 1).val = offx 1 + 1 * (y 1).val
    omega

end Values

section Task

variable (d : Dev nD) (L : grid0.Coords)

abbrev cV (L : grid0.Coords) : Fin τ.nSC := (L 0).castLE hcore0
abbrev jV (L : grid0.Coords) : Fin τ.nSub := (L 1).castLE hsub0

/-- The sixteen queue rows the subcore reads, and the same rows of the result. -/
abbrev qRows (L : grid0.Coords) : Memref sig .scVector .hbm S16x256 .f32 :=
  (qV).slice (Rect.unit (s := S131072x256) (k0_off1 L) S16x256.size (k0_off1_inb L)) (fun _ => rfl)
abbrev oHead (L : grid0.Coords) : Memref sig .scVector .hbm S16x256 .f32 :=
  (oV).slice (Rect.unit (s := S16896x256) (k0_off3 L) S16x256.size (k0_off3_inb L)) (fun _ => rfl)
/-- The four blocks of the batch the subcore reads, -/
abbrev xBlk0 (L : grid0.Coords) : Memref sig .scVector .hbm S128x256 .f32 :=
  (xV).slice (Rect.unit (s := S16384x256) (k0_off2 L) S128x256.size (k0_off2_inb L)) (fun _ => rfl)
abbrev xBlk1 (L : grid0.Coords) : Memref sig .scVector .hbm S128x256 .f32 :=
  (xV).slice (Rect.unit (s := S16384x256) (k0_off4 L 128#32) S128x256.size (k0_off4_inb L 0)) (fun _ => rfl)
abbrev xBlk2 (L : grid0.Coords) : Memref sig .scVector .hbm S128x256 .f32 :=
  (xV).slice (Rect.unit (s := S16384x256) (k0_off4 L 256#32) S128x256.size (k0_off4_inb L 1)) (fun _ => rfl)
abbrev xBlk3 (L : grid0.Coords) : Memref sig .scVector .hbm S128x256 .f32 :=
  (xV).slice (Rect.unit (s := S16384x256) (k0_off4 L 384#32) S128x256.size (k0_off4_inb L 2)) (fun _ => rfl)
/-- and the four blocks of the result it writes them to. -/
abbrev oBlk0 (L : grid0.Coords) : Memref sig .scVector .hbm S128x256 .f32 :=
  (oV).slice (Rect.unit (s := S16896x256) (k0_off5 L 0#32) S128x256.size (k0_off5_inb L 0)) (fun _ => rfl)
abbrev oBlk1 (L : grid0.Coords) : Memref sig .scVector .hbm S128x256 .f32 :=
  (oV).slice (Rect.unit (s := S16896x256) (k0_off5 L 128#32) S128x256.size (k0_off5_inb L 1)) (fun _ => rfl)
abbrev oBlk2 (L : grid0.Coords) : Memref sig .scVector .hbm S128x256 .f32 :=
  (oV).slice (Rect.unit (s := S16896x256) (k0_off5 L 256#32) S128x256.size (k0_off5_inb L 2)) (fun _ => rfl)
abbrev oBlk3 (L : grid0.Coords) : Memref sig .scVector .hbm S128x256 .f32 :=
  (oV).slice (Rect.unit (s := S16896x256) (k0_off5 L 384#32) S128x256.size (k0_off5_inb L 3)) (fun _ => rfl)

abbrev thr (d : Dev nD) (L : grid0.Coords) : Thread nD τ := V d (cV L) (jV L)

abbrev cell (d : Dev nD) (L : grid0.Coords) (a : DmaSem sig) : GSem nD τ sig := (thr d L, SemLoc.dma a)

omit F in
theorem cell_ne (a b : DmaSem sig) (h : a ≠ b) : cell d L a ≠ cell d L b :=
  fun e => h (SemLoc.dma.inj (Prod.mk.inj e).2)
omit F in
theorem cell_mem (a : DmaSem sig) (h : (SemLoc.dma a : SemLoc sig).isScoped .scVector = true) : cell d L a ∈ ownCells (thr d L) :=
  mem_ownCells.mpr ⟨rfl, h⟩

/-! ## The subcore's own semaphores and scratches, named -/

abbrev restCells (d : Dev nD) (L : grid0.Coords) : Finset (GSem nD τ sig) :=
  (((((((ownCells (thr d L)).erase (cell d L cc0_scratch4.sem)).erase (cell d L cc0_scratch5.sem)).erase (cell d L cc0_scratch6.sem)).erase
    (cell d L cc0_scratch7.sem)).erase (cell d L cc0_scratch8.sem)).erase (cell d L cc0_scratch9.sem)).erase (cell d L cc0_scratch10.sem)

theorem ownSems0_task :
    (ownSems0 (thr d L) : sProp 𝕄)
      = iprop(semVal (cell d L cc0_scratch4.sem) 0 ∗ semVal (cell d L cc0_scratch5.sem) 0 ∗ semVal (cell d L cc0_scratch6.sem) 0
          ∗ semVal (cell d L cc0_scratch7.sem) 0 ∗ semVal (cell d L cc0_scratch8.sem) 0 ∗ semVal (cell d L cc0_scratch9.sem) 0
          ∗ semVal (cell d L cc0_scratch10.sem) 0 ∗ bigSep (restCells d L) fun g => semVal g 0) := by
  unfold SparseCore.Cfg.ownSems0
  have m4 := cell_mem d L cc0_scratch4.sem (by decide)
  have m5 := Finset.mem_erase.mpr ⟨cell_ne d L cc0_scratch5.sem cc0_scratch4.sem (by decide), cell_mem d L cc0_scratch5.sem (by decide)⟩
  have m6 := Finset.mem_erase.mpr ⟨cell_ne d L cc0_scratch6.sem cc0_scratch5.sem (by decide),
    Finset.mem_erase.mpr ⟨cell_ne d L cc0_scratch6.sem cc0_scratch4.sem (by decide), cell_mem d L cc0_scratch6.sem (by decide)⟩⟩
  have m7 := Finset.mem_erase.mpr ⟨cell_ne d L cc0_scratch7.sem cc0_scratch6.sem (by decide),
    Finset.mem_erase.mpr ⟨cell_ne d L cc0_scratch7.sem cc0_scratch5.sem (by decide),
    Finset.mem_erase.mpr ⟨cell_ne d L cc0_scratch7.sem cc0_scratch4.sem (by decide), cell_mem d L cc0_scratch7.sem (by decide)⟩⟩⟩
  have m8 := Finset.mem_erase.mpr ⟨cell_ne d L cc0_scratch8.sem cc0_scratch7.sem (by decide),
    Finset.mem_erase.mpr ⟨cell_ne d L cc0_scratch8.sem cc0_scratch6.sem (by decide),
    Finset.mem_erase.mpr ⟨cell_ne d L cc0_scratch8.sem cc0_scratch5.sem (by decide),
    Finset.mem_erase.mpr ⟨cell_ne d L cc0_scratch8.sem cc0_scratch4.sem (by decide), cell_mem d L cc0_scratch8.sem (by decide)⟩⟩⟩⟩
  have m9 := Finset.mem_erase.mpr ⟨cell_ne d L cc0_scratch9.sem cc0_scratch8.sem (by decide),
    Finset.mem_erase.mpr ⟨cell_ne d L cc0_scratch9.sem cc0_scratch7.sem (by decide),
    Finset.mem_erase.mpr ⟨cell_ne d L cc0_scratch9.sem cc0_scratch6.sem (by decide),
    Finset.mem_erase.mpr ⟨cell_ne d L cc0_scratch9.sem cc0_scratch5.sem (by decide),
    Finset.mem_erase.mpr ⟨cell_ne d L cc0_scratch9.sem cc0_scratch4.sem (by decide), cell_mem d L cc0_scratch9.sem (by decide)⟩⟩⟩⟩⟩
  have m10 := Finset.mem_erase.mpr ⟨cell_ne d L cc0_scratch10.sem cc0_scratch9.sem (by decide),
    Finset.mem_erase.mpr ⟨cell_ne d L cc0_scratch10.sem cc0_scratch8.sem (by decide),
    Finset.mem_erase.mpr ⟨cell_ne d L cc0_scratch10.sem cc0_scratch7.sem (by decide),
    Finset.mem_erase.mpr ⟨cell_ne d L cc0_scratch10.sem cc0_scratch6.sem (by decide),
    Finset.mem_erase.mpr ⟨cell_ne d L cc0_scratch10.sem cc0_scratch5.sem (by decide),
    Finset.mem_erase.mpr ⟨cell_ne d L cc0_scratch10.sem cc0_scratch4.sem (by decide), cell_mem d L cc0_scratch10.sem (by decide)⟩⟩⟩⟩⟩⟩
  rw [SparseCore.bigSep_erase' m4, SparseCore.bigSep_erase' m5, SparseCore.bigSep_erase' m6, SparseCore.bigSep_erase' m7,
    SparseCore.bigSep_erase' m8, SparseCore.bigSep_erase' m9, SparseCore.bigSep_erase' m10]

abbrev pV (L : grid0.Coords) : Proc τ := Proc.scVector (cV L) (jV L)

abbrev restRefs (L : grid0.Coords) : Finset (DevRef τ sig) :=
  ((((ownRefs (τ := τ) (pV L)).erase ((pV L).devRef cc0_scratch0)).erase ((pV L).devRef cc0_scratch1)).erase
    ((pV L).devRef cc0_scratch2)).erase ((pV L).devRef cc0_scratch3)

omit F in
theorem ref_ne {a b : Ref sig .scVector} (h : a ≠ b) : (pV L).devRef a ≠ (pV L).devRef b :=
  fun e => h (Proc.devRef_injective _ e)
omit F in
theorem ref_mem (a : Ref sig .scVector) (h : ((pV L).devRef a).owner = .proc (pV L)) : (pV L).devRef a ∈ ownRefs (τ := τ) (pV L) :=
  SparseCore.Cfg.mem_ownRefs_of_owner h

theorem ownBufs_task :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (restRefs L) fun b => iprop(∃ f, ((d, b) : Loc nD τ sig) ↦{fullShare} f)) := by
  unfold SparseCore.Cfg.ownBufs
  refine (SparseCore.bigSep_erase' (ref_mem L cc0_scratch0 rfl)).trans ?_
  rw [SparseCore.bigSep_erase' (Finset.mem_erase.mpr ⟨ref_ne L (by decide), ref_mem L cc0_scratch1 rfl⟩),
    SparseCore.bigSep_erase' (Finset.mem_erase.mpr ⟨ref_ne L (by decide), Finset.mem_erase.mpr ⟨ref_ne L (by decide), ref_mem L cc0_scratch2 rfl⟩⟩),
    SparseCore.bigSep_erase' (Finset.mem_erase.mpr ⟨ref_ne L (by decide), Finset.mem_erase.mpr ⟨ref_ne L (by decide),
      Finset.mem_erase.mpr ⟨ref_ne L (by decide), ref_mem L cc0_scratch3 rfl⟩⟩⟩)]

variable [FloatOps F]

/-- The result the launch ends with, on device `d`: the queue's first 512 rows stacked over the batch. -/
abbrev stk (d : Dev nD) : Buf (Elt F) (oLoc d) := Cert.Stacked.stacked (m (qLoc d)) (m (xLoc d))

/-- The subcore's rows: of the queue and of the batch at their launch contents, and of the result at `fo`. -/
def taskRes (fo : Buf (Elt F) (oLoc d)) : sProp 𝕄 :=
  iprop(((qRows L).view.loc (thr d L) ↦[(qRows L).view.set]{fullShare} m (qLoc d))
    ∗ ((xBlk0 L).view.loc (thr d L) ↦[(xBlk0 L).view.set]{fullShare} m (xLoc d))
    ∗ ((xBlk1 L).view.loc (thr d L) ↦[(xBlk1 L).view.set]{fullShare} m (xLoc d))
    ∗ ((xBlk2 L).view.loc (thr d L) ↦[(xBlk2 L).view.set]{fullShare} m (xLoc d))
    ∗ ((xBlk3 L).view.loc (thr d L) ↦[(xBlk3 L).view.set]{fullShare} m (xLoc d))
    ∗ ((oHead L).view.loc (thr d L) ↦[(oHead L).view.set]{fullShare} fo)
    ∗ ((oBlk0 L).view.loc (thr d L) ↦[(oBlk0 L).view.set]{fullShare} fo)
    ∗ ((oBlk1 L).view.loc (thr d L) ↦[(oBlk1 L).view.set]{fullShare} fo)
    ∗ ((oBlk2 L).view.loc (thr d L) ↦[(oBlk2 L).view.set]{fullShare} fo)
    ∗ ((oBlk3 L).view.loc (thr d L) ↦[(oBlk3 L).view.set]{fullShare} fo))

omit [FloatOps F] in
theorem pts_sQ (f : Buf (Elt F) ((thr d L).loc cc0_scratch0)) :
    ((sQ).view.loc (thr d L) ↦{fullShare} f : sProp 𝕄) = ((thr d L).loc cc0_scratch0 ↦{fullShare} f) := rfl
omit [FloatOps F] in
theorem pts_sA (f : Buf (Elt F) ((thr d L).loc cc0_scratch1)) :
    ((sA).view.loc (thr d L) ↦{fullShare} f : sProp 𝕄) = ((thr d L).loc cc0_scratch1 ↦{fullShare} f) := rfl
omit [FloatOps F] in
theorem pts_sB (f : Buf (Elt F) ((thr d L).loc cc0_scratch2)) :
    ((sB).view.loc (thr d L) ↦{fullShare} f : sProp 𝕄) = ((thr d L).loc cc0_scratch2 ↦{fullShare} f) := rfl
omit [FloatOps F] in
theorem pts_sC (f : Buf (Elt F) ((thr d L).loc cc0_scratch3)) :
    ((sC).view.loc (thr d L) ↦{fullShare} f : sProp 𝕄) = ((thr d L).loc cc0_scratch3 ↦{fullShare} f) := rfl

omit F in
/-- A wait at the kernels' index, recorded. -/
theorem waits_ins {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

/-- The offsets of the subcore's pieces, as the value lemmas ask for them. -/
theorem off_head : k0_off3 L 0 = k0_off1 L 0 ∧ k0_off3 L 1 = k0_off1 L 1 ∧ k0_off3 L 0 + 16 ≤ 512 := by
  have h0 : (L 0).val < 2 := (L 0).isLt
  have h1 : (L 1).val < 16 := (L 1).isLt
  rw [k0_off3_eq, k0_off1_eq]
  refine ⟨rfl, rfl, ?_⟩
  show 32 * (L 1).val + 16 * (L 0).val + 16 ≤ 512
  omega
theorem off_blk0 : k0_off5 L 0#32 0 = k0_off2 L 0 + 512 ∧ k0_off5 L 0#32 1 = k0_off2 L 1 := by
  rw [show (0#32 : BitVec 32) = BitVec.ofNat 32 (128 * (0 : Fin 4).val) from rfl, k0_off5_eq, k0_off2_eq]
  exact ⟨by show 1024 * (L 1).val + 512 * (L 0).val + 128 * 0 + 512 = 1024 * (L 1).val + 512 * (L 0).val + 512; omega, rfl⟩
theorem off_blk1 : k0_off5 L 128#32 0 = k0_off4 L 128#32 0 + 512 ∧ k0_off5 L 128#32 1 = k0_off4 L 128#32 1 := by
  rw [show k0_off5 L 128#32 = k0_off5 L (BitVec.ofNat 32 (128 * (1 : Fin 4).val)) from rfl, k0_off5_eq,
    show k0_off4 L 128#32 = k0_off4 L (BitVec.ofNat 32 (128 + 128 * (0 : Fin 3).val)) from rfl, k0_off4_eq]
  exact ⟨by show 1024 * (L 1).val + 512 * (L 0).val + 128 * 1 + 512 = 1024 * (L 1).val + 512 * (L 0).val + 128 * 0 + 128 + 512; omega, rfl⟩
theorem off_blk2 : k0_off5 L 256#32 0 = k0_off4 L 256#32 0 + 512 ∧ k0_off5 L 256#32 1 = k0_off4 L 256#32 1 := by
  rw [show k0_off5 L 256#32 = k0_off5 L (BitVec.ofNat 32 (128 * (2 : Fin 4).val)) from rfl, k0_off5_eq,
    show k0_off4 L 256#32 = k0_off4 L (BitVec.ofNat 32 (128 + 128 * (1 : Fin 3).val)) from rfl, k0_off4_eq]
  exact ⟨by show 1024 * (L 1).val + 512 * (L 0).val + 128 * 2 + 512 = 1024 * (L 1).val + 512 * (L 0).val + 128 * 1 + 128 + 512; omega, rfl⟩
theorem off_blk3 : k0_off5 L 384#32 0 = k0_off4 L 384#32 0 + 512 ∧ k0_off5 L 384#32 1 = k0_off4 L 384#32 1 := by
  rw [show k0_off5 L 384#32 = k0_off5 L (BitVec.ofNat 32 (128 * (3 : Fin 4).val)) from rfl, k0_off5_eq,
    show k0_off4 L 384#32 = k0_off4 L (BitVec.ofNat 32 (128 + 128 * (2 : Fin 3).val)) from rfl, k0_off4_eq]
  exact ⟨by show 1024 * (L 1).val + 512 * (L 0).val + 128 * 3 + 512 = 1024 * (L 1).val + 512 * (L 0).val + 128 * 2 + 128 + 512; omega, rfl⟩

/-- The task on vector subcore `(L 0, L 1)` of device `d`: ten copies and their waits; what it leaves in its rows of the
    result is the stacked array there, whatever they and the scratches held. -/
theorem task_body (hF : (K (F := F)).Facts) (fo : Buf (Elt F) (oLoc d)) (O : CellTallies nD τ sig (HIx 1)) (W : Waits sig (HIx 1)) (hO : ∀ g, O g none = 0) :
    iprop(levAts (K (F := F)).L (K (F := F)).lev ∗ emp ∗ taskRes m d L fo
        ∗ scopedBufs (thr d L) ∗ scopedSems0 (thr d L) ∗ owes (thr d L) O W)
      ⊢ wp frame (wpE (defs₀ (F := F)) 𝒱₀ (thr d L) none) Set.univ
          (cc0__sc_copy L xV (Memref.isWhole_whole _) qV (Memref.isWhole_whole _) oV (Memref.isWhole_whole _)
            sQ (Memref.isWhole_whole _) sA (Memref.isWhole_whole _) sB (Memref.isWhole_whole _) sC (Memref.isWhole_whole _)
            cc0_scratch4 cc0_scratch5 cc0_scratch6 cc0_scratch7 cc0_scratch8 cc0_scratch9 cc0_scratch10)
          fun _ => iprop(taskRes m d L (stk m d) ∗ scopedBufs (thr d L) ∗ scopedSems0 (thr d L)
            ∗ ∃ W', ⌜∀ p ∈ W', p ∈ W ∨ p.2 = none⌝ ∗ owes (thr d L) O W') := by
  simp only [cc0__sc_copy_eq_skeleton]; unfold cc0__sc_copy_skel
  rw [(K (F := F)).scopedBufs_V hF d (cV L) (jV L), SparseCore.Cfg.scopedSems0_V (Val := Elt F) d (cV L) (jV L), ownSems0_task, ownBufs_task]
  unfold taskRes
  iintro ⟨#Hlv, -, ⟨Hq, Hx0, Hx1, Hx2, Hx3, Hoh, Ho0, Ho1, Ho2, Ho3⟩, ⟨⟨%fq, HsQ⟩, ⟨%fa, HsA⟩, ⟨%fb, HsB⟩, ⟨%fc, HsC⟩, Hbufs⟩,
    ⟨Hs4, Hs5, Hs6, Hs7, Hs8, Hs9, Hs10, Hsems⟩, HO⟩
  ihave Hmw := (show levAts (K (F := F)).L (K (F := F)).lev ⊢ Transfers.MayWaits (thr d L) (none : HIx 1) O from
    (K (F := F)).mayWaits_none (thr := thr d L) hO) $$ Hlv
  ihave HsQ' := (Entails.of_eq (pts_sQ (F := F) d L fq).symm) $$ HsQ
  ihave HsA' := (Entails.of_eq (pts_sA (F := F) d L fa).symm) $$ HsA
  ihave HsB' := (Entails.of_eq (pts_sB (F := F) d L fb).symm) $$ HsB
  ihave HsC' := (Entails.of_eq (pts_sC (F := F) d L fc).symm) $$ HsC
  sl_exec
  -- what each copy out left in its piece of the result is the stacked array there
  have vh : ∀ i ∈ (oHead L).view.set, ((oHead L).view.writes (Elt F) fo [⟨Rect.whole S16x256, task_body.sl.dma0_2 m d L fq⟩]) i = stk m d i :=
    head_value (m (qLoc d)) (m (xLoc d)) fo (k0_off3 L) (k0_off1 L) (k0_off3_inb L) (k0_off1_inb L) (off_head L).1 (off_head L).2.1 (off_head L).2.2
      (task_body.sl.dma0_2 m d L fq) (by sl_unfold_run_names; exact View.write_whole_univ cc0_scratch0 _ _)
  have v0 : ∀ i ∈ (oBlk0 L).view.set, ((oBlk0 L).view.writes (Elt F) fo [⟨Rect.whole S128x256, task_body.sl.dma0_4 m d L fa⟩]) i = stk m d i :=
    blk_value (m (qLoc d)) (m (xLoc d)) fo (k0_off5 L 0#32) (k0_off2 L) (k0_off5_inb L 0) (k0_off2_inb L) (off_blk0 L).1 (off_blk0 L).2
      (task_body.sl.dma0_4 m d L fa) (by sl_unfold_run_names; exact View.write_whole_univ cc0_scratch1 _ _)
  have v1 : ∀ i ∈ (oBlk1 L).view.set, ((oBlk1 L).view.writes (Elt F) fo [⟨Rect.whole S128x256, task_body.sl.dma0_6 m d L fb⟩]) i = stk m d i :=
    blk_value (m (qLoc d)) (m (xLoc d)) fo (k0_off5 L 128#32) (k0_off4 L 128#32) (k0_off5_inb L 1) (k0_off4_inb L 0) (off_blk1 L).1 (off_blk1 L).2
      (task_body.sl.dma0_6 m d L fb) (by sl_unfold_run_names; exact View.write_whole_univ cc0_scratch2 _ _)
  have v2 : ∀ i ∈ (oBlk2 L).view.set, ((oBlk2 L).view.writes (Elt F) fo [⟨Rect.whole S128x256, task_body.sl.dma0_8 m d L fc⟩]) i = stk m d i :=
    blk_value (m (qLoc d)) (m (xLoc d)) fo (k0_off5 L 256#32) (k0_off4 L 256#32) (k0_off5_inb L 2) (k0_off4_inb L 1) (off_blk2 L).1 (off_blk2 L).2
      (task_body.sl.dma0_8 m d L fc) (by sl_unfold_run_names; exact View.write_whole_univ cc0_scratch3 _ _)
  have v3 : ∀ i ∈ (oBlk3 L).view.set, ((oBlk3 L).view.writes (Elt F) fo [⟨Rect.whole S128x256, task_body.sl.dma0_9 m d L fa⟩]) i = stk m d i :=
    blk_value (m (qLoc d)) (m (xLoc d)) fo (k0_off5 L 384#32) (k0_off4 L 384#32) (k0_off5_inb L 3) (k0_off4_inb L 2) (off_blk3 L).1 (off_blk3 L).2
      (task_body.sl.dma0_9 m d L fa) (by sl_unfold_run_names; exact View.write_whole_univ cc0_scratch1 _ _)
  ihave Hoh' := (Entails.of_eq (pointsTo_congr vh)) $$ Hoh
  ihave Ho0' := (Entails.of_eq (pointsTo_congr v0)) $$ Ho0
  ihave Ho1' := (Entails.of_eq (pointsTo_congr v1)) $$ Ho1
  ihave Ho2' := (Entails.of_eq (pointsTo_congr v2)) $$ Ho2
  ihave Ho3' := (Entails.of_eq (pointsTo_congr v3)) $$ Ho3
  ihave HsQ := (Entails.of_eq (pts_sQ (F := F) d L _)) $$ HsQ'
  ihave HsA := (Entails.of_eq (pts_sA (F := F) d L _)) $$ HsA'
  ihave HsB := (Entails.of_eq (pts_sB (F := F) d L _)) $$ HsB'
  ihave HsC := (Entails.of_eq (pts_sC (F := F) d L _)) $$ HsC'
  sl_step
  isplitl [Hq Hx0 Hx1 Hx2 Hx3 Hoh' Ho0' Ho1' Ho2' Ho3']
  · isplitl [Hq]; · iexact Hq
    isplitl [Hx0]; · iexact Hx0
    isplitl [Hx1]; · iexact Hx1
    isplitl [Hx2]; · iexact Hx2
    isplitl [Hx3]; · iexact Hx3
    isplitl [Hoh']; · iexact Hoh'
    isplitl [Ho0']; · iexact Ho0'
    isplitl [Ho1']; · iexact Ho1'
    isplitl [Ho2']; · iexact Ho2'
    iexact Ho3'
  isplitl [HsQ HsA HsB HsC Hbufs]
  · isplitl [HsQ]; · iexists _; iexact HsQ
    isplitl [HsA]; · iexists _; iexact HsA
    isplitl [HsB]; · iexists _; iexact HsB
    isplitl [HsC]; · iexists _; iexact HsC
    iexact Hbufs
  isplitl [Hs4 Hs5 Hs6 Hs7 Hs8 Hs9 Hs10 Hsems]
  · isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    iexact Hsems
  iexists _; isplitr
  rotate_left
  · iexact HO
  · ipureintro
    exact waits_ins (waits_ins (waits_ins (waits_ins (waits_ins (waits_ins (waits_ins (waits_ins (waits_ins (waits_ins (fun p hp => Or.inl hp))))))))))

end Task

end Cert.Proof.CopyIdeal

end
-- ==== Proof.LaunchIdeal.lean ====
/-
  The launch. The call hands each SparseCore the rows of its sixteen subcores, each subcore its own rows (sixteen of
  the queue, four blocks of the batch, and the matching rows of the result); every subcore runs its task; the rows
  come back with the result's at the stacked array. The whole arrays split into these rows and join again because the
  thirty-two workers' row ranges tile each array: worker w = 2 s + c owns queue rows 16 w .., batch rows 512 w .. in four
  blocks of 128, result rows 16 w .. and 512 + 512 w .. in four blocks of 128; the queue's rows from 512 on are nobody's.
-/
import proofs.«219490_g11244224381196_week1_w3_1464_12_alg».proof.Proof.TaskIdeal
import proofs.«219490_g11244224381196_week1_w3_1464_12_alg».proof.Proof.LibRowBands

noncomputable section

namespace Cert.Proof.CopyIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch theorem's obligation: every subcore's task -/

def coordsV (c : Fin (grid0.bound 0)) (s : Fin (grid0.bound 1)) : grid0.Coords :=
  fun | 0 => c | 1 => s | ⟨_ + 2, h⟩ => absurd h (Nat.not_lt.2 (Nat.le_add_left _ _))

/-- The grid coordinates of subcore `i` of SparseCore `c` of the call. -/
abbrev coordsK (c : Fin ((K (F := F)).nCore 0)) (i : Fin ((K (F := F)).nSub 0)) : grid0.Coords :=
  coordsV (Fin.cast nCore_zero c) (Fin.cast nSub_zero i)

theorem defs₀_vector (c : Fin τ.nSC) (s : Fin τ.nSub) :
    defs₀ (F := F) (.scVector c s) 0 ()
      = SparseCore.onTile hcore0 hsub0 (fun c s => cc0__sc_copy (coordsV c s)
          xV (Memref.isWhole_whole _) qV (Memref.isWhole_whole _) oV (Memref.isWhole_whole _)
          sQ (Memref.isWhole_whole _) sA (Memref.isWhole_whole _) sB (Memref.isWhole_whole _) sC (Memref.isWhole_whole _)
          cc0_scratch4 cc0_scratch5 cc0_scratch6 cc0_scratch7 cc0_scratch8 cc0_scratch9 cc0_scratch10) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The call's payloads: each subcore its rows, a SparseCore its sixteen subcores' rows; back, the same with the result's
    rows at the stacked array. Nothing of the launch's is consumed. -/
def P : (K (F := F)).Pay (nD := nD) (Val := Elt F) (Name := ℕ) (U := UU) where
  st := fun q d c => match q with
    | 0 => bigSep Finset.univ fun i : Fin ((K (F := F)).nSub 0) => taskRes m d (coordsK c i) (m (oLoc d))
  dn := fun q d c => match q with
    | 0 => bigSep Finset.univ fun i : Fin ((K (F := F)).nSub 0) => taskRes m d (coordsK c i) (stk m d)
  go := fun q d c i => match q with | 0 => taskRes m d (coordsK c i) (m (oLoc d))
  td := fun q d c i => match q with | 0 => taskRes m d (coordsK c i) (stk m d)
  x := fun _ _ => iprop(emp)

instance taskRes_storable (d : Dev nD) (L : grid0.Coords) (fo : Buf (Elt F) (oLoc d)) : BI.Storable (upEmb : UEmb _ 𝕄) (taskRes m d L fo) := by
  unfold taskRes; infer_instance

instance P_storable : (P (F := F) m).IsStorable where
  st q d c := match q with
    | 0 => (inferInstance : BI.Storable (upEmb : UEmb _ 𝕄) (bigSep Finset.univ fun i : Fin ((K (F := F)).nSub 0) => taskRes m d (coordsK c i) (m (oLoc d))))
  dn q d c := match q with
    | 0 => (inferInstance : BI.Storable (upEmb : UEmb _ 𝕄) (bigSep Finset.univ fun i : Fin ((K (F := F)).nSub 0) => taskRes m d (coordsK c i) (stk m d)))
  go q d c i := match q with | 0 => (inferInstance : BI.Storable (upEmb : UEmb _ 𝕄) (taskRes m d (coordsK c i) (m (oLoc d))))
  td q d c i := match q with | 0 => (inferInstance : BI.Storable (upEmb : UEmb _ 𝕄) (taskRes m d (coordsK c i) (stk m d)))

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (task_body m d (coordsK c i) hF (m (oLoc d)) O W hO).trans (wp_mono frame _ _ fun _ => obl_post)

/-- A SparseCore's rows are its subcores' rows, both ways. -/
theorem vecSplit : (K (F := F)).VecSplit' (P m) 0 := by
  intro d c
  show (bigSep Finset.univ fun i : Fin ((K (F := F)).nSub 0) => taskRes m d (coordsK c i) (m (oLoc d))) ⊢ |={Set.univ}=> iprop(
      (bigSep Finset.univ fun i : Fin ((K (F := F)).nSub 0) => taskRes m d (coordsK c i) (m (oLoc d)))
      ∗ ((bigSep Finset.univ fun i : Fin ((K (F := F)).nSub 0) => taskRes m d (coordsK c i) (stk m d))
          -∗ (bigSep Finset.univ fun i : Fin ((K (F := F)).nSub 0) => taskRes m d (coordsK c i) (stk m d))))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.CopyIdeal

end
-- ==== Proof.RunIdeal.lean ====
/-
  The run. The whole arrays split into the thirty-two workers' rows and join again, because the workers' row ranges
  tile each array: worker w = 2 s + c owns batch rows 512 w .. in four blocks of 128, queue rows 16 w .., and result rows
  16 w .. and 512 + 512 w .. in four blocks of 128; the queue's rows from 512 on are nobody's and stay with the
  TensorCore. The TensorCore hands the rows out, waits, takes them back with the result's at the stacked array, and the
  final memory is read off: the result is the queue's first 512 rows stacked over the batch, the arguments unchanged.
-/
import proofs.«219490_g11244224381196_week1_w3_1464_12_alg».proof.Proof.LaunchIdeal

noncomputable section

namespace Cert.Proof.CopyIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The workers' rows tile the arrays -/

/-- A worker: SparseCore `c`, subcore `s`. -/
abbrev Wk : Type := Fin 2 × Fin 16
abbrev co (p : Wk) : grid0.Coords := coordsV p.1 p.2

omit [FloatOps F] in
theorem wk_ne {p p' : Wk} (h : p ≠ p') : p.1.val ≠ p'.1.val ∨ p.2.val ≠ p'.2.val := by
  by_contra hc
  have h1 : p.1.val = p'.1.val := by omega
  have h2 : p.2.val = p'.2.val := by omega
  exact h (Prod.ext (Fin.ext h1) (Fin.ext h2))

/-! ### The batch: 128 blocks of 128 rows, four to a worker -/

def xOff (L : grid0.Coords) : Fin 4 → Fin 2 → ℕ := ![k0_off2 L, k0_off4 L 128#32, k0_off4 L 256#32, k0_off4 L 384#32]

theorem xInb (L : grid0.Coords) : ∀ (k : Fin 4) a, xOff L k a + S128x256.size a ≤ S16384x256.size a := by
  intro k; fin_cases k
  · exact k0_off2_inb L
  · exact k0_off4_inb L 0
  · exact k0_off4_inb L 1
  · exact k0_off4_inb L 2

/-- Block `k` of worker `(c, s)` starts at row 1024 s + 512 c + 128 k and is full width. -/
theorem xOff_row (L : grid0.Coords) (k : Fin 4) : xOff L k 0 = 1024 * (L 1).val + 512 * (L 0).val + 128 * k.val ∧ xOff L k 1 = 0 := by
  fin_cases k
  · show k0_off2 L 0 = _ ∧ k0_off2 L 1 = 0
    rw [k0_off2_eq]; exact ⟨by show 1024 * (L 1).val + 512 * (L 0).val = 1024 * (L 1).val + 512 * (L 0).val + 128 * 0; omega, rfl⟩
  · show k0_off4 L (BitVec.ofNat 32 (128 + 128 * (0 : Fin 3).val)) 0 = _ ∧ k0_off4 L (BitVec.ofNat 32 (128 + 128 * (0 : Fin 3).val)) 1 = 0
    rw [k0_off4_eq]; exact ⟨by show 1024 * (L 1).val + 512 * (L 0).val + 128 * 0 + 128 = 1024 * (L 1).val + 512 * (L 0).val + 128 * 1; omega, rfl⟩
  · show k0_off4 L (BitVec.ofNat 32 (128 + 128 * (1 : Fin 3).val)) 0 = _ ∧ k0_off4 L (BitVec.ofNat 32 (128 + 128 * (1 : Fin 3).val)) 1 = 0
    rw [k0_off4_eq]; exact ⟨by show 1024 * (L 1).val + 512 * (L 0).val + 128 * 1 + 128 = 1024 * (L 1).val + 512 * (L 0).val + 128 * 2; omega, rfl⟩
  · show k0_off4 L (BitVec.ofNat 32 (128 + 128 * (2 : Fin 3).val)) 0 = _ ∧ k0_off4 L (BitVec.ofNat 32 (128 + 128 * (2 : Fin 3).val)) 1 = 0
    rw [k0_off4_eq]; exact ⟨by show 1024 * (L 1).val + 512 * (L 0).val + 128 * 2 + 128 = 1024 * (L 1).val + 512 * (L 0).val + 128 * 3; omega, rfl⟩

abbrev xSet (L : grid0.Coords) (k : Fin 4) : Finset S16384x256.Idx := (Rect.unit (s := S16384x256) (xOff L k) S128x256.size (xInb L k)).set

theorem x_disj : ∀ t ∈ (Finset.univ : Finset (Wk × Fin 4)), ∀ t' ∈ (Finset.univ : Finset (Wk × Fin 4)), t ≠ t' →
    Disjoint (xSet (co t.1) t.2) (xSet (co t'.1) t'.2) := by
  refine Cert.RowBands.disjoint_of_rows (R := 16384) (C := 256) (fun t : Wk × Fin 4 => xOff (co t.1) t.2) (fun _ => S128x256.size)
    (fun t => xInb (co t.1) t.2) (fun t t' hne => ?_) Finset.univ
  show xOff (co t.1) t.2 0 + 128 ≤ xOff (co t'.1) t'.2 0 ∨ xOff (co t'.1) t'.2 0 + 128 ≤ xOff (co t.1) t.2 0
  rw [(xOff_row (co t.1) t.2).1, (xOff_row (co t'.1) t'.2).1]
  show 1024 * t.1.2.val + 512 * t.1.1.val + 128 * t.2.val + 128 ≤ 1024 * t'.1.2.val + 512 * t'.1.1.val + 128 * t'.2.val
    ∨ 1024 * t'.1.2.val + 512 * t'.1.1.val + 128 * t'.2.val + 128 ≤ 1024 * t.1.2.val + 512 * t.1.1.val + 128 * t.2.val
  have hc : t.1.1.val < 2 := t.1.1.isLt
  have hc' : t'.1.1.val < 2 := t'.1.1.isLt
  have hk : t.2.val < 4 := t.2.isLt
  have hk' : t'.2.val < 4 := t'.2.isLt
  have hd : t.1.1.val ≠ t'.1.1.val ∨ t.1.2.val ≠ t'.1.2.val ∨ t.2.val ≠ t'.2.val := by
    by_contra hcon
    have h1 : t.1.1.val = t'.1.1.val := by omega
    have h2 : t.1.2.val = t'.1.2.val := by omega
    have h3 : t.2.val = t'.2.val := by omega
    exact hne (Prod.ext (Prod.ext (Fin.ext h1) (Fin.ext h2)) (Fin.ext h3))
  omega

theorem x_cover : (Finset.univ : Finset (Wk × Fin 4)).biUnion (fun t => xSet (co t.1) t.2) = Finset.univ := by
  refine Cert.RowBands.cover_of_rows (R := 16384) (C := 256) (fun t : Wk × Fin 4 => xOff (co t.1) t.2) (fun _ => S128x256.size)
    (fun t => xInb (co t.1) t.2) (fun t => ⟨(xOff_row (co t.1) t.2).2, rfl⟩) (fun r hr => ?_)
  refine ⟨((⟨r % 1024 / 512, by omega⟩, ⟨r / 1024, by omega⟩), ⟨r % 512 / 128, by omega⟩), ?_⟩
  show xOff _ _ 0 ≤ r ∧ r < xOff _ _ 0 + 128
  rw [(xOff_row _ _).1]
  show 1024 * (r / 1024) + 512 * (r % 1024 / 512) + 128 * (r % 512 / 128) ≤ r ∧ r < 1024 * (r / 1024) + 512 * (r % 1024 / 512) + 128 * (r % 512 / 128) + 128
  omega

omit [FloatOps F] in
/-- The batch is its workers' blocks. -/
theorem x_split (d : Dev nD) (f : Buf (Elt F) (xLoc d)) :
    (xLoc d ↦{fullShare} f : sProp 𝕄)
      = bigSep Finset.univ fun p : Wk => iprop((xLoc d ↦[xSet (co p) 0]{fullShare} f) ∗ (xLoc d ↦[xSet (co p) 1]{fullShare} f)
          ∗ (xLoc d ↦[xSet (co p) 2]{fullShare} f) ∗ (xLoc d ↦[xSet (co p) 3]{fullShare} f)) := by
  have e : (xLoc d ↦{fullShare} f : sProp 𝕄) = bigSep Finset.univ fun t : Wk × Fin 4 => xLoc d ↦[xSet (co t.1) t.2]{fullShare} f := by
    rw [← pointsTo_biUnion Finset.univ (ℓ := xLoc d) (fun t : Wk × Fin 4 => xSet (co t.1) t.2) x_disj, x_cover]; try rfl
  rw [e, bigSep_univ_prod]
  refine bigSep_congr fun p _ => ?_
  rw [show (Finset.univ : Finset (Fin 4)) = {0, 1, 2, 3} by decide, SparseCore.bigSep_insert' (by decide), SparseCore.bigSep_insert' (by decide),
    SparseCore.bigSep_insert' (by decide), bigSep_singleton]

/-! ### The queue: sixteen rows to a worker; the rows from 512 on are nobody's -/

def qOff : Wk ⊕ Unit → Fin 2 → ℕ
  | .inl p => k0_off1 (co p)
  | .inr _ => ![512, 0]
def qSize : Wk ⊕ Unit → Fin 2 → ℕ
  | .inl _ => S16x256.size
  | .inr _ => ![130560, 256]
theorem qInb : ∀ (t : Wk ⊕ Unit) a, qOff t a + qSize t a ≤ S131072x256.size a
  | .inl p => k0_off1_inb (co p)
  | .inr _ => by
    intro a; fin_cases a
    · show 512 + 130560 ≤ 131072; omega
    · show 0 + 256 ≤ 256; omega

abbrev qSetT (t : Wk ⊕ Unit) : Finset S131072x256.Idx := (Rect.unit (s := S131072x256) (qOff t) (qSize t) (qInb t)).set
abbrev qSet (L : grid0.Coords) : Finset S131072x256.Idx := (Rect.unit (s := S131072x256) (k0_off1 L) S16x256.size (k0_off1_inb L)).set
abbrev qRest : Finset S131072x256.Idx := qSetT (.inr ())

theorem q_row (p : Wk) : k0_off1 (co p) 0 = 32 * p.2.val + 16 * p.1.val ∧ k0_off1 (co p) 1 = 0 := by
  rw [k0_off1_eq]; exact ⟨rfl, rfl⟩

theorem q_disj : ∀ t ∈ (Finset.univ : Finset (Wk ⊕ Unit)), ∀ t' ∈ (Finset.univ : Finset (Wk ⊕ Unit)), t ≠ t' → Disjoint (qSetT t) (qSetT t') := by
  refine Cert.RowBands.disjoint_of_rows (R := 131072) (C := 256) qOff qSize qInb (fun t t' hne => ?_) Finset.univ
  rcases t with p | u <;> rcases t' with p' | u'
  · show k0_off1 (co p) 0 + 16 ≤ k0_off1 (co p') 0 ∨ k0_off1 (co p') 0 + 16 ≤ k0_off1 (co p) 0
    rw [(q_row p).1, (q_row p').1]
    have hd := wk_ne (fun h => hne (congrArg Sum.inl h))
    have h1 : p.1.val < 2 := p.1.isLt
    have h2 : p'.1.val < 2 := p'.1.isLt
    omega
  · show k0_off1 (co p) 0 + 16 ≤ 512 ∨ 512 + 130560 ≤ k0_off1 (co p) 0
    rw [(q_row p).1]
    have h1 : p.1.val < 2 := p.1.isLt
    have h2 : p.2.val < 16 := p.2.isLt
    omega
  · show 512 + 130560 ≤ k0_off1 (co p') 0 ∨ k0_off1 (co p') 0 + 16 ≤ 512
    rw [(q_row p').1]
    have h1 : p'.1.val < 2 := p'.1.isLt
    have h2 : p'.2.val < 16 := p'.2.isLt
    omega
  · exact absurd rfl hne

theorem q_cover : (Finset.univ : Finset (Wk ⊕ Unit)).biUnion qSetT = Finset.univ := by
  refine Cert.RowBands.cover_of_rows (R := 131072) (C := 256) qOff qSize qInb (fun t => ?_) (fun r hr => ?_)
  · rcases t with p | u
    · exact ⟨(q_row p).2, rfl⟩
    · exact ⟨rfl, rfl⟩
  · by_cases h : r < 512
    · refine ⟨.inl (⟨r % 32 / 16, by omega⟩, ⟨r / 32, by omega⟩), ?_⟩
      show k0_off1 _ 0 ≤ r ∧ r < k0_off1 _ 0 + 16
      rw [(q_row _).1]
      show 32 * (r / 32) + 16 * (r % 32 / 16) ≤ r ∧ r < 32 * (r / 32) + 16 * (r % 32 / 16) + 16
      omega
    · refine ⟨.inr (), ?_⟩
      show 512 ≤ r ∧ r < 512 + 130560
      omega

omit [FloatOps F] in
/-- The queue is its workers' rows and the rest. -/
theorem q_split (d : Dev nD) (f : Buf (Elt F) (qLoc d)) :
    (qLoc d ↦{fullShare} f : sProp 𝕄)
      = iprop((bigSep Finset.univ fun p : Wk => qLoc d ↦[qSet (co p)]{fullShare} f) ∗ qLoc d ↦[qRest]{fullShare} f) := by
  have e : (qLoc d ↦{fullShare} f : sProp 𝕄) = bigSep Finset.univ fun t : Wk ⊕ Unit => qLoc d ↦[qSetT t]{fullShare} f := by
    rw [← pointsTo_biUnion Finset.univ (ℓ := qLoc d) qSetT q_disj, q_cover]; try rfl
  rw [e, bigSep_univ_sum, bigSep_univ_of_subsingleton ()]
  rfl

/-! ### The result: sixteen head rows and four blocks of 128 rows to a worker -/

def oOff (L : grid0.Coords) : Fin 5 → Fin 2 → ℕ := ![k0_off3 L, k0_off5 L 0#32, k0_off5 L 128#32, k0_off5 L 256#32, k0_off5 L 384#32]
def oSize : Fin 5 → Fin 2 → ℕ := ![S16x256.size, S128x256.size, S128x256.size, S128x256.size, S128x256.size]

theorem oInb (L : grid0.Coords) : ∀ (k : Fin 5) a, oOff L k a + oSize k a ≤ S16896x256.size a := by
  intro k; fin_cases k
  · exact k0_off3_inb L
  · exact k0_off5_inb L 0
  · exact k0_off5_inb L 1
  · exact k0_off5_inb L 2
  · exact k0_off5_inb L 3

/-- Piece 0 of worker `(c, s)` is rows 32 s + 16 c .. + 16; piece k ≥ 1 is rows 512 + 1024 s + 512 c + 128 (k - 1) .. + 128. -/
theorem oOff_row (L : grid0.Coords) (k : Fin 5) :
    ((k.val = 0 ∧ oOff L k 0 = 32 * (L 1).val + 16 * (L 0).val ∧ oSize k 0 = 16)
      ∨ (1 ≤ k.val ∧ oOff L k 0 = 1024 * (L 1).val + 512 * (L 0).val + 128 * (k.val - 1) + 512 ∧ oSize k 0 = 128))
    ∧ oOff L k 1 = 0 ∧ oSize k 1 = 256 := by
  fin_cases k
  · refine ⟨.inl ⟨rfl, ?_, rfl⟩, ?_, rfl⟩
    · show k0_off3 L 0 = _; rw [k0_off3_eq]; rfl
    · show k0_off3 L 1 = 0; rw [k0_off3_eq]; rfl
  · refine ⟨.inr ⟨by decide, ?_, rfl⟩, ?_, rfl⟩
    · show k0_off5 L (BitVec.ofNat 32 (128 * (0 : Fin 4).val)) 0 = _; rw [k0_off5_eq]; rfl
    · show k0_off5 L (BitVec.ofNat 32 (128 * (0 : Fin 4).val)) 1 = 0; rw [k0_off5_eq]; rfl
  · refine ⟨.inr ⟨by decide, ?_, rfl⟩, ?_, rfl⟩
    · show k0_off5 L (BitVec.ofNat 32 (128 * (1 : Fin 4).val)) 0 = _; rw [k0_off5_eq]; rfl
    · show k0_off5 L (BitVec.ofNat 32 (128 * (1 : Fin 4).val)) 1 = 0; rw [k0_off5_eq]; rfl
  · refine ⟨.inr ⟨by decide, ?_, rfl⟩, ?_, rfl⟩
    · show k0_off5 L (BitVec.ofNat 32 (128 * (2 : Fin 4).val)) 0 = _; rw [k0_off5_eq]; rfl
    · show k0_off5 L (BitVec.ofNat 32 (128 * (2 : Fin 4).val)) 1 = 0; rw [k0_off5_eq]; rfl
  · refine ⟨.inr ⟨by decide, ?_, rfl⟩, ?_, rfl⟩
    · show k0_off5 L (BitVec.ofNat 32 (128 * (3 : Fin 4).val)) 0 = _; rw [k0_off5_eq]; rfl
    · show k0_off5 L (BitVec.ofNat 32 (128 * (3 : Fin 4).val)) 1 = 0; rw [k0_off5_eq]; rfl

abbrev oSet (L : grid0.Coords) (k : Fin 5) : Finset S16896x256.Idx := (Rect.unit (s := S16896x256) (oOff L k) (oSize k) (oInb L k)).set

theorem o_disj : ∀ t ∈ (Finset.univ : Finset (Wk × Fin 5)), ∀ t' ∈ (Finset.univ : Finset (Wk × Fin 5)), t ≠ t' →
    Disjoint (oSet (co t.1) t.2) (oSet (co t'.1) t'.2) := by
  refine Cert.RowBands.disjoint_of_rows (R := 16896) (C := 256) (fun t : Wk × Fin 5 => oOff (co t.1) t.2) (fun t => oSize t.2)
    (fun t => oInb (co t.1) t.2) (fun t t' hne => ?_) Finset.univ
  show oOff (co t.1) t.2 0 + oSize t.2 0 ≤ oOff (co t'.1) t'.2 0 ∨ oOff (co t'.1) t'.2 0 + oSize t'.2 0 ≤ oOff (co t.1) t.2 0
  have hc : t.1.1.val < 2 := t.1.1.isLt
  have hc' : t'.1.1.val < 2 := t'.1.1.isLt
  have hs : t.1.2.val < 16 := t.1.2.isLt
  have hs' : t'.1.2.val < 16 := t'.1.2.isLt
  have hk : t.2.val < 5 := t.2.isLt
  have hk' : t'.2.val < 5 := t'.2.isLt
  have hd : t.1.1.val ≠ t'.1.1.val ∨ t.1.2.val ≠ t'.1.2.val ∨ t.2.val ≠ t'.2.val := by
    by_contra hcon
    have h1 : t.1.1.val = t'.1.1.val := by omega
    have h2 : t.1.2.val = t'.1.2.val := by omega
    have h3 : t.2.val = t'.2.val := by omega
    exact hne (Prod.ext (Prod.ext (Fin.ext h1) (Fin.ext h2)) (Fin.ext h3))
  have e1 : ((co t.1) 1).val = t.1.2.val ∧ ((co t.1) 0).val = t.1.1.val := ⟨rfl, rfl⟩
  have e2 : ((co t'.1) 1).val = t'.1.2.val ∧ ((co t'.1) 0).val = t'.1.1.val := ⟨rfl, rfl⟩
  rcases (oOff_row (co t.1) t.2).1 with ⟨k0, ho, hn⟩ | ⟨k1, ho, hn⟩ <;> rcases (oOff_row (co t'.1) t'.2).1 with ⟨k0', ho', hn'⟩ | ⟨k1', ho', hn'⟩ <;>
    rw [ho, hn, ho', hn', e1.1, e1.2, e2.1, e2.2] <;> omega

theorem o_cover : (Finset.univ : Finset (Wk × Fin 5)).biUnion (fun t => oSet (co t.1) t.2) = Finset.univ := by
  refine Cert.RowBands.cover_of_rows (R := 16896) (C := 256) (fun t : Wk × Fin 5 => oOff (co t.1) t.2) (fun t => oSize t.2)
    (fun t => oInb (co t.1) t.2) (fun t => (oOff_row (co t.1) t.2).2) (fun r hr => ?_)
  by_cases h : r < 512
  · refine ⟨((⟨r % 32 / 16, by omega⟩, ⟨r / 32, by omega⟩), ⟨0, by omega⟩), ?_⟩
    show oOff _ _ 0 ≤ r ∧ r < oOff _ _ 0 + oSize _ 0
    rcases (oOff_row (co (⟨r % 32 / 16, by omega⟩, ⟨r / 32, by omega⟩)) ⟨0, by omega⟩).1 with ⟨-, ho, hn⟩ | ⟨k1, -, -⟩
    · rw [ho, hn]
      show 32 * (r / 32) + 16 * (r % 32 / 16) ≤ r ∧ r < 32 * (r / 32) + 16 * (r % 32 / 16) + 16
      omega
    · exact absurd k1 (Nat.not_succ_le_zero 0)
  · refine ⟨((⟨(r - 512) % 1024 / 512, by omega⟩, ⟨(r - 512) / 1024, by omega⟩), ⟨(r - 512) % 512 / 128 + 1, by omega⟩), ?_⟩
    show oOff _ _ 0 ≤ r ∧ r < oOff _ _ 0 + oSize _ 0
    rcases (oOff_row (co (⟨(r - 512) % 1024 / 512, by omega⟩, ⟨(r - 512) / 1024, by omega⟩)) ⟨(r - 512) % 512 / 128 + 1, by omega⟩).1 with ⟨k0, -, -⟩ | ⟨-, ho, hn⟩
    · exact absurd k0 (Nat.succ_ne_zero _)
    · rw [ho, hn]
      show 1024 * ((r - 512) / 1024) + 512 * ((r - 512) % 1024 / 512) + 128 * ((r - 512) % 512 / 128 + 1 - 1) + 512 ≤ r
        ∧ r < 1024 * ((r - 512) / 1024) + 512 * ((r - 512) % 1024 / 512) + 128 * ((r - 512) % 512 / 128 + 1 - 1) + 512 + 128
      omega

omit [FloatOps F] in
/-- The result is its workers' pieces. -/
theorem o_split (d : Dev nD) (f : Buf (Elt F) (oLoc d)) :
    (oLoc d ↦{fullShare} f : sProp 𝕄)
      = bigSep Finset.univ fun p : Wk => iprop((oLoc d ↦[oSet (co p) 0]{fullShare} f) ∗ (oLoc d ↦[oSet (co p) 1]{fullShare} f)
          ∗ (oLoc d ↦[oSet (co p) 2]{fullShare} f) ∗ (oLoc d ↦[oSet (co p) 3]{fullShare} f) ∗ (oLoc d ↦[oSet (co p) 4]{fullShare} f)) := by
  have e : (oLoc d ↦{fullShare} f : sProp 𝕄) = bigSep Finset.univ fun t : Wk × Fin 5 => oLoc d ↦[oSet (co t.1) t.2]{fullShare} f := by
    rw [← pointsTo_biUnion Finset.univ (ℓ := oLoc d) (fun t : Wk × Fin 5 => oSet (co t.1) t.2) o_disj, o_cover]; try rfl
  rw [e, bigSep_univ_prod]
  refine bigSep_congr fun p _ => ?_
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

/-! ## A worker's rows are rows of the arrays -/

theorem taskRes_rows (d : Dev nD) (p : Wk) (fo : Buf (Elt F) (oLoc d)) :
    taskRes m d (co p) fo
      = iprop((qLoc d ↦[qSet (co p)]{fullShare} m (qLoc d))
          ∗ (xLoc d ↦[xSet (co p) 0]{fullShare} m (xLoc d)) ∗ (xLoc d ↦[xSet (co p) 1]{fullShare} m (xLoc d))
          ∗ (xLoc d ↦[xSet (co p) 2]{fullShare} m (xLoc d)) ∗ (xLoc d ↦[xSet (co p) 3]{fullShare} m (xLoc d))
          ∗ (oLoc d ↦[oSet (co p) 0]{fullShare} fo) ∗ (oLoc d ↦[oSet (co p) 1]{fullShare} fo) ∗ (oLoc d ↦[oSet (co p) 2]{fullShare} fo)
          ∗ (oLoc d ↦[oSet (co p) 3]{fullShare} fo) ∗ (oLoc d ↦[oSet (co p) 4]{fullShare} fo)) := by
  unfold taskRes
  rw [show (qRows (co p)).view.set = qSet (co p) from View.set_slice_whole _ _,
    show (xBlk0 (co p)).view.set = xSet (co p) 0 from View.set_slice_whole _ _,
    show (xBlk1 (co p)).view.set = xSet (co p) 1 from View.set_slice_whole _ _,
    show (xBlk2 (co p)).view.set = xSet (co p) 2 from View.set_slice_whole _ _,
    show (xBlk3 (co p)).view.set = xSet (co p) 3 from View.set_slice_whole _ _,
    show (oHead (co p)).view.set = oSet (co p) 0 from View.set_slice_whole _ _,
    show (oBlk0 (co p)).view.set = oSet (co p) 1 from View.set_slice_whole _ _,
    show (oBlk1 (co p)).view.set = oSet (co p) 2 from View.set_slice_whole _ _,
    show (oBlk2 (co p)).view.set = oSet (co p) 3 from View.set_slice_whole _ _,
    show (oBlk3 (co p)).view.set = oSet (co p) 4 from View.set_slice_whole _ _]

/-- The three arrays whole, dealt out as the workers' rows (and the queue's unowned rest), -/
theorem rows_out (d : Dev nD) (fo : Buf (Elt F) (oLoc d)) :
    iprop((xLoc d ↦{fullShare} m (xLoc d)) ∗ (qLoc d ↦{fullShare} m (qLoc d)) ∗ (oLoc d ↦{fullShare} fo))
      ⊢ (iprop((bigSep Finset.univ fun p : Wk => taskRes m d (co p) fo) ∗ qLoc d ↦[qRest]{fullShare} m (qLoc d)) : sProp 𝕄) := by
  rw [x_split, q_split, o_split, bigSep_congr (fun p _ => taskRes_rows m d p fo)]
  simp only [bigSep_sep']
  iintro ⟨⟨X0, X1, X2, X3⟩, ⟨Q, QR⟩, ⟨O0, O1, O2, O3, O4⟩⟩
  isplitr [QR]
  · isplitl [Q]; · iexact Q
    isplitl [X0]; · iexact X0
    isplitl [X1]; · iexact X1
    isplitl [X2]; · iexact X2
    isplitl [X3]; · iexact X3
    isplitl [O0]; · iexact O0
    isplitl [O1]; · iexact O1
    isplitl [O2]; · iexact O2
    isplitl [O3]; · iexact O3
    iexact O4
  · iexact QR

/-- and gathered again. -/
theorem rows_back (d : Dev nD) (fo : Buf (Elt F) (oLoc d)) :
    (iprop((bigSep Finset.univ fun p : Wk => taskRes m d (co p) fo) ∗ qLoc d ↦[qRest]{fullShare} m (qLoc d)) : sProp 𝕄)
      ⊢ iprop((xLoc d ↦{fullShare} m (xLoc d)) ∗ (qLoc d ↦{fullShare} m (qLoc d)) ∗ (oLoc d ↦{fullShare} fo)) := by
  rw [x_split, q_split, o_split, bigSep_congr (fun p _ => taskRes_rows m d p fo)]
  simp only [bigSep_sep']
  iintro ⟨⟨Q, X0, X1, X2, X3, O0, O1, O2, O3, O4⟩, QR⟩
  isplitl [X0 X1 X2 X3]
  · isplitl [X0]; · iexact X0
    isplitl [X1]; · iexact X1
    isplitl [X2]; · iexact X2
    iexact X3
  isplitl [Q QR]
  · isplitl [Q]; · iexact Q
    iexact QR
  isplitl [O0]; · iexact O0
  isplitl [O1]; · iexact O1
  isplitl [O2]; · iexact O2
  isplitl [O3]; · iexact O3
  iexact O4

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (qLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) :
    (bigSep Finset.univ fun c : Fin ((K (F := F)).nCore 0) => (P m).st 0 d c) = bigSep Finset.univ fun p : Wk => taskRes m d (co p) (m (oLoc d)) := by
  rw [bigSep_univ_prod]; rfl
theorem dn0_eq (d : Dev nD) :
    (bigSep Finset.univ fun c : Fin ((K (F := F)).nCore 0) => (P m).dn 0 d c) = bigSep Finset.univ fun p : Wk => taskRes m d (co p) (stk m d) := by
  rw [bigSep_univ_prod]; rfl

/-- What @main leaves the claim: the arguments at their launch contents, the result at the stacked array. -/
abbrev FIN (d : Dev nD) : sProp 𝕄 := iprop((xLoc d ↦{fullShare} m (xLoc d)) ∗ (qLoc d ↦{fullShare} m (qLoc d)) ∗ (oLoc d ↦{fullShare} stk m d))

/-- @main on device `d`'s TensorCore: the one call, the arrays dealt out before it and gathered after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hq, Ho⟩, -, -⟩, -⟩
  ihave Hsp := (rows_out m d (m (oLoc d))) $$ [Hx Hq Ho]
  · isplitl [Hx]; · iexact Hx
    isplitl [Hq]; · iexact Hq
    iexact Ho
  icases Hsp with ⟨Htasks, Hqr⟩
  iapply ((K (F := F)).wp_run (D (F := F)) 𝒱 (EH := EH) (P := P m) κ d 0) $$ [Hst Htasks Hqr]
  isplitr; · iexact Hctx
  isplitl [Hst]; · iexact Hst
  isplitl [Htasks]
  · rw [st0_eq]; iexact Htasks
  iintro ⟨Hst, Hdn⟩
  ihave Hdn' := (Entails.of_eq (dn0_eq m d)) $$ Hdn
  ihave Hj := (rows_back m d (stk m d)) $$ [Hdn' Hqr]
  · isplitl [Hdn']; · iexact Hdn'
    iexact Hqr
  icases Hj with ⟨Hx, Hq, Ho⟩
  imodintro
  isplitl [Hst]; · iexact Hst
  isplitl [Hx]; · iexact Hx
  isplitl [Hq]; · iexact Hq
  iexact Ho

def fq (d : Dev nD) (s' : Phys nD τ sig (Elt F)) : Prop :=
  s'.mem.mem (oLoc d) = stk m d ∧ s'.mem.mem (xLoc d) = m (xLoc d) ∧ s'.mem.mem (qLoc d) = m (qLoc d)

theorem hfin (d : Dev nD) (s' : Phys nD τ sig (Elt F)) : iprop(FIN m d ∗ SI s') ⊢ (⌜fq m d s'⌝ : sProp 𝕄) := by
  iintro ⟨⟨Hx, Hq, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := qLoc d) (I := Finset.univ) (q := fullShare) (f := m (qLoc d)))) $$ [HSI Hq]
  · isplitl [HSI] <;> iassumption
  icases H with ⟨%h2, HSI, -⟩
  ihave H := (SI_pointsTo_agree (st := s') (ℓ := oLoc d) (I := Finset.univ) (q := fullShare) (f := stk m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = stk m c ∧ r.2.mem (xLoc c) = m (xLoc c) ∧ r.2.mem (qLoc c) = m (qLoc c)

/-- Every weakly fair execution of the device's threads terminates, nothing faulting, with the result at the queue's
    first 512 rows stacked over the batch and the arguments unchanged. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.CopyIdeal

end
-- ==== Proof.RefValue.lean ====
/-
  The reference's result, read off its run: the batch written into the queue at row 512, then the first 16896 rows
  kept. The start row 512 is inside the queue with room for the batch (512 + 16384 ≤ 131072), so the clamped start is 512
  itself; a kept row below 512 is the queue's, a kept row from 512 on is the batch's row 512 up.
-/
import proofs.«219490_g11244224381196_week1_w3_1464_12_alg».proof.Defs
import proofs.«219490_g11244224381196_week1_w3_1464_12_alg».proof.Proof.RefRun
import proofs.«219490_g11244224381196_week1_w3_1464_12_alg».proof.Proof.Stacked
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The row of the queue a kept row is. -/
def keptIdx (i : S16896x256.Idx) : S131072x256.Idx := fun a => match a with
  | ⟨0, _⟩ => ⟨(i 0).val, by have h0 : (i 0).val < 16896 := (i 0).isLt; show (i 0).val < 131072; omega⟩
  | ⟨1, _⟩ => ⟨(i 1).val, (i 1).isLt⟩

theorem slices_at_512 : S131072x256.Slices ![512, 0] S16384x256 :=
  ⟨rfl, fun a => by
    match a with
    | ⟨0, _⟩ => show 512 + 16384 ≤ 131072; omega
    | ⟨1, _⟩ => show 0 + 256 ≤ 256; omega⟩

/-- The clamped start: row 512 stays 512 (there is room for the batch below row 131072), column 0 stays 0. -/
theorem start_row : (min (max (BitVec.toInt (512#32 : BitVec 32)) 0) ((131072 - 16384 : ℕ) : ℤ)).toNat = 512 := by decide
theorem start_col : (min (max (BitVec.toInt (0#32 : BitVec 32)) 0) ((256 - 256 : ℕ) : ℤ)).toNat = 0 := by decide

/-- The reference's term is the queue's first 512 rows stacked over the batch. -/
theorem result_eq (x : (⟨S16384x256, .f32⟩ : BufTy).Contents (Elt F)) (q : (⟨S131072x256, .f32⟩ : BufTy).Contents (Elt F)) :
    extractStridedSlice S16896x256 ![0, 0] (Host.dynamicUpdateSlice q x (fun k => (((![constantI S_ 32 512#32, constantI S_ 32 0#32] : Fin 2 → (⟨S_, .i32⟩ : BufTy).Contents (Elt F))) k (Shape.Idx.first h_S_)).toInt) updateFits_S131072x256_S16384x256) slices_S131072x256_S16896x256_0_0
      = Cert.Stacked.stacked q x := by
  funext i
  rw [extractStridedSlice_apply ![0, 0] _ slices_S131072x256_S16896x256_0_0 i (keptIdx i) (fun a => match a with
    | ⟨0, _⟩ => by show (i 0).val = 0 + (i 0).val; omega
    | ⟨1, _⟩ => by show (i 1).val = 0 + (i 1).val; omega)]
  rw [Host.dynamicUpdateSlice_eq_updateSlice q x _ updateFits_S131072x256_S16384x256 ![512, 0] (fun a => match a with
    | ⟨0, _⟩ => start_row
    | ⟨1, _⟩ => start_col) slices_at_512]
  unfold updateSlice
  by_cases h : (i 0).val < 512
  · rw [dif_neg (fun hin => by have := (hin 0).1; change 512 ≤ (i 0).val at this; omega)]
    exact (Cert.Stacked.stacked_head q x i (keptIdx i) rfl rfl h).symm
  · have hi0 : (i 0).val < 16896 := (i 0).isLt
    have hi1 : (i 1).val < 256 := (i 1).isLt
    rw [dif_pos (fun a => match a with
      | ⟨0, _⟩ => by show 512 ≤ (i 0).val ∧ (i 0).val < 512 + 16384; omega
      | ⟨1, _⟩ => by show 0 ≤ (i 1).val ∧ (i 1).val < 0 + 256; omega)]
    refine (Cert.Stacked.stacked_tail q x i _ ?_ ?_).symm
    · show (i 0).val = (i 0).val - 512 + 512; omega
    · show (i 1).val = (i 1).val - 0; omega

end Cert.ReferenceIdeal.RefValue

end
-- ==== Proof.lean ====
/-
  The claim: the kernel's result is the reference's. Both are pure data movement. The reference writes the batch
  (16384 rows) into the queue at row 512 and keeps the first 16896 rows: the queue's first 512 rows stacked over the
  batch. The kernel is thirty-two workers, one per vector subcore; worker w copies queue rows 16 w .. 16 w + 16 into the
  same rows of the result and batch rows 512 w + 128 k .. (k < 4) into result rows 512 + 512 w + 128 k .., every copy
  through a scratch buffer of its own subcore. The workers' row ranges tile the result, so every element of the result is
  written by exactly one copy, with the stacked array's element; no arithmetic is done on any element, so the two
  results agree on all extended reals and the precondition is not used. The same run, with the values dropped, is the
  frame of the kernel at either instance; the ideal pass rewrote nothing, so there is nothing to preserve.
-/
import proofs.«219490_g11244224381196_week1_w3_1464_12_alg».proof.Defs
import proofs.«219490_g11244224381196_week1_w3_1464_12_alg».proof.Proof.Gen.Kernel
import proofs.«219490_g11244224381196_week1_w3_1464_12_alg».proof.Proof.Gen.Kernel.Skeleton
import proofs.«219490_g11244224381196_week1_w3_1464_12_alg».proof.Proof.Gen.KernelIdeal
import proofs.«219490_g11244224381196_week1_w3_1464_12_alg».proof.Proof.Gen.KernelIdeal.Skeleton
import proofs.«219490_g11244224381196_week1_w3_1464_12_alg».proof.Proof.Gen.ReferenceIdeal
import proofs.«219490_g11244224381196_week1_w3_1464_12_alg».proof.Proof.Gen.Pre_finite_inputs
import proofs.«219490_g11244224381196_week1_w3_1464_12_alg».proof.Proof.RunBits
import proofs.«219490_g11244224381196_week1_w3_1464_12_alg».proof.Proof.RunIdeal
import proofs.«219490_g11244224381196_week1_w3_1464_12_alg».proof.Proof.RefValue
import Idealize.ShloMosaic.Adequacy
import Idealize.ShloMosaic.Init

noncomputable section

namespace Cert.Proof

open Idealize.ShloMosaic Idealize.SL.Sem

/-- The kernel as printed runs to the end, nothing faulting, its arguments unchanged: its run with the result dropped. -/
theorem frame_kernel : Cert.frame_Kernel := fun m g _ =>
  (θ_run Cert.Kernel.defs _ _).mono (fun _ h c => (h c).2) (CopyBits.run_main (F := Bits) m g)

/-- The same of the idealized kernel. -/
theorem frame_kernelIdeal : Cert.frame_KernelIdeal := fun m g _ =>
  (θ_run Cert.KernelIdeal.defs _ _).mono (fun _ h c => (h c).2) (CopyIdeal.run_main (F := Ideal) m g)

/-- The reference's frame is its run with the result dropped. -/
theorem frame_reference : Cert.frame_ReferenceIdeal := fun m g _ =>
  (θ_run Cert.ReferenceIdeal.defs _ _).mono (fun _ h c => (h c).2) (Cert.ReferenceIdeal.ValueP.run (F := Ideal) m g)

/-- Both programs end with the queue's first 512 rows stacked over the batch. -/
theorem algebraic : Cert.algebraic_KernelIdeal_ReferenceIdeal := by
  intro m g m' g' _ hagree
  refine ⟨fun c => CopyIdeal.stk m c, CopyIdeal.run_main (F := Ideal) m g, ?_⟩
  refine (θ_run Cert.ReferenceIdeal.defs _ _).mono (fun _ h c => ⟨(h c).1.trans ?_, (h c).2⟩)
    (Cert.ReferenceIdeal.ValueP.run (F := Ideal) m' g')
  exact (Cert.ReferenceIdeal.RefValue.result_eq (F := Ideal) _ _).trans (congrArg₂ Cert.Stacked.stacked (hagree c).2 (hagree c).1)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
